-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S4x2 1) : IVec S_ 1 :=
  let main_c_5 : IVec S_ 1 := constantI S_ 1 1#1
  let main_v17 : IVec S_ 1 := (fun x v => Host.reduce IntOp.andi x v reducesTo_S4x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x2 .f32) (main_arg1 : IVec S2x16000000 32) (main_arg2 : FVec F S2x4 .f32) (main_arg3 : FVec F S4 .f32) (main_arg4 : FVec F S4x2 .f32) (main_arg5 : FVec F S2 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S2x4 .f32 := Host.absf main_arg2
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x2 .f32 := Host.absf main_arg4
  let main_cst_4 : FVec F S_ .f32 := constant S_ .f32 0x7F800000#32
  let main_v15 : FVec F S4x2 .f32 := broadcastInDim S4x2 ![] bcast_S_S4x2 main_cst_4
  let main_v16 : IVec S4x2 1 := cmpf .olt main_v14 main_v15
  fn_part1 (F := F) main_arg5 main_v13 main_v16
-- ==== Kernel.lean ====
abbrev S1000000x2 : Shape := ⟨2, ![1000000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S1x16000000 : Shape := ⟨2, ![1, 16000000]⟩
abbrev S16000000 : Shape := ⟨1, ![16000000]⟩
abbrev S_ : Shape := ⟨0, ![]⟩
abbrev S1000000 : Shape := ⟨1, ![1000000]⟩
abbrev S16000000x1 : Shape := ⟨2, ![16000000, 1]⟩
abbrev S16000000x2 : Shape := ⟨2, ![16000000, 2]⟩
abbrev S1000000x1 : Shape := ⟨2, ![1000000, 1]⟩
abbrev S1x4 : Shape := ⟨2, ![1, 4]⟩
abbrev S1000000x4 : Shape := ⟨2, ![1000000, 4]⟩
abbrev S10000x2 : Shape := ⟨2, ![10000, 2]⟩
abbrev S10000x4 : Shape := ⟨2, ![10000, 4]⟩
abbrev S15625x128 : Shape := ⟨2, ![15625, 128]⟩
abbrev S1x2 : Shape := ⟨2, ![1, 2]⟩
abbrev S64x2 : Shape := ⟨2, ![64, 2]⟩
abbrev S128 : Shape := ⟨1, ![128]⟩
abbrev S1x128 : Shape := ⟨2, ![1, 128]⟩

abbrev nBuf : Space → Nat
  | .hbm => 97
  | .vmem => 14
  | .smem => 0
  | _ => 0

abbrev bufTy : (tb : Table) → Fin (tcTables nBuf tb) → BufTy
  | .hbm, ⟨0, _⟩ => ⟨S1000000x2, .f32⟩
  | .hbm, ⟨1, _⟩ => ⟨S2x16000000, .i32⟩
  | .hbm, ⟨2, _⟩ => ⟨S2x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S_, .f32⟩
  | .hbm, ⟨11, _⟩ => ⟨S16000000, .f32⟩
  | .hbm, ⟨12, _⟩ => ⟨S_, .f32⟩
  | .hbm, ⟨13, _⟩ => ⟨S1000000, .f32⟩
  | .hbm, ⟨14, _⟩ => ⟨S16000000x1, .i32⟩
  | .hbm, ⟨15, _⟩ => ⟨S1000000, .f32⟩
  | .hbm, ⟨16, _⟩ => ⟨S_, .f32⟩
  | .hbm, ⟨17, _⟩ => ⟨S1000000, .f32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S1000000, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S1000000, .f32⟩
  | .hbm, ⟨28, _⟩ => ⟨S_, .i32⟩
  | .hbm, ⟨29, _⟩ => ⟨S16000000, .i32⟩
  | .hbm, ⟨30, _⟩ => ⟨S16000000, .i1⟩
  | .hbm, ⟨31, _⟩ => ⟨S_, .i32⟩
  | .hbm, ⟨32, _⟩ => ⟨S16000000, .i32⟩
  | .hbm, ⟨33, _⟩ => ⟨S16000000, .i32⟩
  | .hbm, ⟨34, _⟩ => ⟨S16000000, .i32⟩
  | .hbm, ⟨35, _⟩ => ⟨S16000000x1, .i32⟩
  | .hbm, ⟨36, _⟩ => ⟨S16000000, .f32⟩
  | .hbm, ⟨37, _⟩ => ⟨S_, .i32⟩
  | .hbm, ⟨38, _⟩ => ⟨S16000000, .i32⟩
  | .hbm, ⟨39, _⟩ => ⟨S16000000, .i1⟩
  | .hbm, ⟨40, _⟩ => ⟨S_, .i32⟩
  | .hbm, ⟨41, _⟩ => ⟨S16000000, .i32⟩
  | .hbm, ⟨42, _⟩ => ⟨S16000000, .i32⟩
  | .hbm, ⟨43, _⟩ => ⟨S16000000, .i32⟩
  | .hbm, ⟨44, _⟩ => ⟨S16000000x1, .i32⟩
  | .hbm, ⟨45, _⟩ => ⟨S16000000, .f32⟩
  | .hbm, ⟨46, _⟩ => ⟨S16000000, .f32⟩
  | .hbm, ⟨47, _⟩ => ⟨S_, .i32⟩
  | .hbm, ⟨48, _⟩ => ⟨S16000000, .i32⟩
  | .hbm, ⟨49, _⟩ => ⟨S16000000, .i1⟩
  | .hbm, ⟨50, _⟩ => ⟨S_, .i32⟩
  | .hbm, ⟨51, _⟩ => ⟨S16000000, .i32⟩
  | .hbm, ⟨52, _⟩ => ⟨S16000000, .i32⟩
  | .hbm, ⟨53, _⟩ => ⟨S16000000, .i32⟩
  | .hbm, ⟨54, _⟩ => ⟨S16000000x1, .i32⟩
  | .hbm, ⟨55, _⟩ => ⟨S16000000x2, .f32⟩
  | .hbm, ⟨56, _⟩ => ⟨S16000000x1, .f32⟩
  | .hbm, ⟨57, _⟩ => ⟨S16000000x2, .f32⟩
  | .hbm, ⟨58, _⟩ => ⟨S16000000x2, .f32⟩
  | .hbm, ⟨59, _⟩ => ⟨S_, .f32⟩
  | .hbm, ⟨60, _⟩ => ⟨S1000000x2, .f32⟩
  | .hbm, ⟨61, _⟩ => ⟨S16000000x1, .i32⟩
  | .hbm, ⟨62, _⟩ => ⟨S1000000x2, .f32⟩
  | .hbm, ⟨63, _⟩ => ⟨S1000000x1, .f32⟩
  | .hbm, ⟨64, _⟩ => ⟨S1000000x2, .f32⟩
  | .hbm, ⟨65, _⟩ => ⟨S1000000x2, .f32⟩
  | .hbm, ⟨66, _⟩ => ⟨S1000000x2, .f32⟩
  | .hbm, ⟨67, _⟩ => ⟨S1x4, .f32⟩
  | .hbm, ⟨68, _⟩ => ⟨S1000000x4, .f32⟩
  | .hbm, ⟨69, _⟩ => ⟨S1000000x2, .f32⟩
  | .hbm, ⟨70, _⟩ => ⟨S_, .i32⟩
  | .hbm, ⟨71, _⟩ => ⟨S16000000, .i32⟩
  | .hbm, ⟨72, _⟩ => ⟨S16000000, .i1⟩
  | .hbm, ⟨73, _⟩ => ⟨S_, .i32⟩
  | .hbm, ⟨74, _⟩ => ⟨S16000000, .i32⟩
  | .hbm, ⟨75, _⟩ => ⟨S16000000, .i32⟩
  | .hbm, ⟨76, _⟩ => ⟨S16000000, .i32⟩
  | .hbm, ⟨77, _⟩ => ⟨S16000000x1, .i32⟩
  | .hbm, ⟨78, _⟩ => ⟨S16000000x2, .f32⟩
  | .hbm, ⟨79, _⟩ => ⟨S16000000x1, .f32⟩
  | .hbm, ⟨80, _⟩ => ⟨S16000000x2, .f32⟩
  | .hbm, ⟨81, _⟩ => ⟨S16000000x2, .f32⟩
  | .hbm, ⟨82, _⟩ => ⟨S_, .f32⟩
  | .hbm, ⟨83, _⟩ => ⟨S1000000x2, .f32⟩
  | .hbm, ⟨84, _⟩ => ⟨S16000000x1, .i32⟩
  | .hbm, ⟨85, _⟩ => ⟨S1000000x2, .f32⟩
  | .hbm, ⟨86, _⟩ => ⟨S1000000x1, .f32⟩
  | .hbm, ⟨87, _⟩ => ⟨S1000000x2, .f32⟩
  | .hbm, ⟨88, _⟩ => ⟨S1000000x2, .f32⟩
  | .hbm, ⟨89, _⟩ => ⟨S1000000x2, .f32⟩
  | .hbm, ⟨90, _⟩ => ⟨S15625x128, .f32⟩
  | .hbm, ⟨91, _⟩ => ⟨S1x2, .f32⟩
  | .hbm, ⟨92, _⟩ => ⟨S64x2, .f32⟩
  | .hbm, ⟨93, _⟩ => ⟨S128, .f32⟩
  | .hbm, ⟨94, _⟩ => ⟨S1x128, .f32⟩
  | .hbm, ⟨95, _⟩ => ⟨S15625x128, .f32⟩
  | .hbm, ⟨96, _⟩ => ⟨S1000000x2, .f32⟩
  | .local _ .vmem, ⟨0, _⟩ => ⟨S10000x2, .f32⟩
  | .local _ .vmem, ⟨1, _⟩ => ⟨S10000x2, .f32⟩
  | .local _ .vmem, ⟨2, _⟩ => ⟨S2x4, .f32⟩
  | .local _ .vmem, ⟨3, _⟩ => ⟨S1x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S10000x4, .f32⟩
  | .local _ .vmem, ⟨8, _⟩ => ⟨S4x2, .f32⟩
  | .local _ .vmem, ⟨9, _⟩ => ⟨S10000x2, .f32⟩
  | .local _ .vmem, ⟨10, _⟩ => ⟨S10000x2, .f32⟩
  | .local _ .vmem, ⟨11, _⟩ => ⟨S15625x128, .f32⟩
  | .local _ .vmem, ⟨12, _⟩ => ⟨S1x128, .f32⟩
  | .local _ .vmem, ⟨13, _⟩ => ⟨S15625x128, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S15625x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S15625x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S16000000x1_S16000000x2_0_1 : S16000000x1.BroadcastsInDim S16000000x2 (![0, 1] : Fin 2 → Fin S16000000x2.rank)
  bcast_S_S1000000x2 : S_.BroadcastsInDim S1000000x2 (![] : Fin 0 → Fin S1000000x2.rank)
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  shapeCasts_S4_S1x4 : S4.ShapeCasts S1x4
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x4_S2x4_0_0 : ∀ a, (![0, 0] : Fin 2 → Nat) a + S2x4.size a ≤ S2x4.size a
  h_S2x4 : 0 < S2x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S4x2_S4x2_0_0 : ∀ a, (![0, 0] : Fin 2 → Nat) a + S4x2.size a ≤ S4x2.size a
  h_S4x2 : 0 < S4x2.numel
  shapeCasts_S1000000x2_S15625x128 : S1000000x2.ShapeCasts S15625x128
  shapeCasts_S2_S1x2 : S2.ShapeCasts S1x2
  bcast_S1x2_S64x2_0_1 : S1x2.BroadcastsInDim S64x2 (![0, 1] : Fin 2 → Fin S64x2.rank)
  shapeCasts_S64x2_S128 : S64x2.ShapeCasts S128
  shapeCasts_S128_S1x128 : S128.ShapeCasts S1x128
  inb_S15625x128_S15625x128_0_0 : ∀ a, (![0, 0] : Fin 2 → Nat) a + S15625x128.size a ≤ S15625x128.size a
  h_S15625x128 : 0 < S15625x128.numel
  shapeCasts_S15625x128_S15625x128 : S15625x128.ShapeCasts S15625x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S15625x128 : S1x128.Broadcasts S15625x128
  shapeCasts_S15625x128_S1000000x2 : S15625x128.ShapeCasts S1000000x2
  scatter_S1000000_S16000000x1_S16000000_n_0_0_1_wf : ScatterDims.WF S1000000 S16000000x1 S16000000 [] [0] [0] 1
  gather_S1000000_S16000000x1_S16000000_n_0_n_n_0_1_1_wf : GatherDims.WF S1000000 S16000000x1 S16000000 [] [0] [] [0] [] 1 ![1]
  gather_S1000000x2_S16000000x1_S16000000x2_1_0_n_n_0_1_12_wf : GatherDims.WF S1000000x2 S16000000x1 S16000000x2 [1] [0] [] [0] [] 1 ![1, 2]
  scatter_S1000000x2_S16000000x1_S16000000x2_1_0_0_1_wf : ScatterDims.WF S1000000x2 S16000000x1 S16000000x2 [1] [0] [0] 1
  dot_S10000x2_S2x4_S10000x4_1_0_0_1_n_n_wf : DotDims.WF S10000x2 S2x4 S10000x4 [1] [0] [0] [1] [] []
  dot_S10000x4_S4x2_S10000x2_1_0_0_1_n_n_wf : DotDims.WF S10000x4 S4x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S1000000x2.size a
  hwx0_0 : ∀ i : grid0.Coords, EltTy.bits .f32 = 32 ∨ (Rect.block (s := S1000000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4.size a ≤ S2x4.size a
  hwx0_1 : ∀ i : grid0.Coords, EltTy.bits .f32 = 32 ∨ (Rect.block (s := S2x4) S2x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x4.size a ≤ S1000000x4.size a
  hwx0_3 : ∀ i : grid0.Coords, EltTy.bits .f32 = 32 ∨ (Rect.block (s := S1000000x4) S10000x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S1000000x4.size a
  hwx1_0 : ∀ i : grid1.Coords, EltTy.bits .f32 = 32 ∨ (Rect.block (s := S1000000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x2.size a ≤ S4x2.size a
  hwx1_1 : ∀ i : grid1.Coords, EltTy.bits .f32 = 32 ∨ (Rect.block (s := S4x2) S4x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S1000000x2.size a
  hwx1_2 : ∀ i : grid1.Coords, EltTy.bits .f32 = 32 ∨ (Rect.block (s := S1000000x2) S10000x2.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S15625x128.size a ≤ S15625x128.size a
  hwx2_0 : ∀ i : grid2.Coords, EltTy.bits .f32 = 32 ∨ (Rect.block (s := S15625x128) S15625x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S15625x128.size a ≤ S15625x128.size a
  hwx2_2 : ∀ i : grid2.Coords, EltTy.bits .f32 = 32 ∨ (Rect.block (s := S15625x128) S15625x128.size (cc2_transform_2 i) (hinb2_2 i)).WholeWords (EltTy.packing .f32)

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def gather_S1000000x2_S16000000x1_S16000000x2_1_0_n_n_0_1_12 : GatherDims S1000000x2 S16000000x1 S16000000x2 where
  offsetDims := [1]
  collapsedSliceDims := [0]
  operandBatchingDims := []
  startIndicesBatchingDims := []
  startIndexMap := [0]
  indexVectorDim := 1
  sliceSizes := ![1, 2]
  wf := gather_S1000000x2_S16000000x1_S16000000x2_1_0_n_n_0_1_12_wf
def scatter_S1000000x2_S16000000x1_S16000000x2_1_0_0_1 : ScatterDims S1000000x2 S16000000x1 S16000000x2 where
  updateWindowDims := [1]
  insertedWindowDims := [0]
  scatterDimsToOperandDims := [0]
  indexVectorDim := 1
  wf := scatter_S1000000x2_S16000000x1_S16000000x2_1_0_0_1_wf
def dot_S10000x2_S2x4_S10000x4_1_0_0_1_n_n : DotDims S10000x2 S2x4 S10000x4 where
  lhsContracting := [1]
  rhsContracting := [0]
  lhsNonContracting := [0]
  rhsNonContracting := [1]
  lhsBatch := []
  rhsBatch := []
  wf := dot_S10000x2_S2x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf

abbrev win0_0 : Pipeline.Window sig grid0 :=
  Pipeline.Window.ofSpec (Memref.whole main_v46) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S10000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S15625x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v71) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S15625x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1000000x2 : Shape := ⟨2, ![1000000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S1000000 : Shape := ⟨1, ![1000000]⟩
abbrev S1x16000000 : Shape := ⟨2, ![1, 16000000]⟩
abbrev S16000000 : Shape := ⟨1, ![16000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S17000000x4 : Shape := ⟨2, ![17000000, 4]⟩
abbrev S1x4 : Shape := ⟨2, ![1, 4]⟩
abbrev S17000000x2 : Shape := ⟨2, ![17000000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S2x16000000, .i32⟩
  | .hbm, ⟨2, _⟩ => ⟨S2x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S1000000, .i32⟩
  | .hbm, ⟨7, _⟩ => ⟨S1x16000000, .i32⟩
  | .hbm, ⟨8, _⟩ => ⟨S16000000, .i32⟩
  | .hbm, ⟨9, _⟩ => ⟨S17000000, .i32⟩
  | .hbm, ⟨10, _⟩ => ⟨S1x16000000, .i32⟩
  | .hbm, ⟨11, _⟩ => ⟨S16000000, .i32⟩
  | .hbm, ⟨12, _⟩ => ⟨S17000000, .i32⟩
  | .hbm, ⟨13, _⟩ => ⟨S_, .f32⟩
  | .hbm, ⟨14, _⟩ => ⟨S17000000, .f32⟩
  | .hbm, ⟨15, _⟩ => ⟨S_, .f32⟩
  | .hbm, ⟨16, _⟩ => ⟨S1000000, .f32⟩
  | .hbm, ⟨17, _⟩ => ⟨S17000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S1000000, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S17000000, .i32⟩
  | .hbm, ⟨29, _⟩ => ⟨S17000000, .i1⟩
  | .hbm, ⟨30, _⟩ => ⟨S_, .i32⟩
  | .hbm, ⟨31, _⟩ => ⟨S17000000, .i32⟩
  | .hbm, ⟨32, _⟩ => ⟨S17000000, .i32⟩
  | .hbm, ⟨33, _⟩ => ⟨S17000000, .i32⟩
  | .hbm, ⟨34, _⟩ => ⟨S17000000x1, .i32⟩
  | .hbm, ⟨35, _⟩ => ⟨S17000000, .f32⟩
  | .hbm, ⟨36, _⟩ => ⟨S_, .i32⟩
  | .hbm, ⟨37, _⟩ => ⟨S17000000, .i32⟩
  | .hbm, ⟨38, _⟩ => ⟨S17000000, .i1⟩
  | .hbm, ⟨39, _⟩ => ⟨S_, .i32⟩
  | .hbm, ⟨40, _⟩ => ⟨S17000000, .i32⟩
  | .hbm, ⟨41, _⟩ => ⟨S17000000, .i32⟩
  | .hbm, ⟨42, _⟩ => ⟨S17000000, .i32⟩
  | .hbm, ⟨43, _⟩ => ⟨S17000000x1, .i32⟩
  | .hbm, ⟨44, _⟩ => ⟨S17000000, .f32⟩
  | .hbm, ⟨45, _⟩ => ⟨S17000000, .f32⟩
  | .hbm, ⟨46, _⟩ => ⟨S1000000x4, .f32⟩
  | .hbm, ⟨47, _⟩ => ⟨S_, .i32⟩
  | .hbm, ⟨48, _⟩ => ⟨S17000000, .i32⟩
  | .hbm, ⟨49, _⟩ => ⟨S17000000, .i1⟩
  | .hbm, ⟨50, _⟩ => ⟨S_, .i32⟩
  | .hbm, ⟨51, _⟩ => ⟨S17000000, .i32⟩
  | .hbm, ⟨52, _⟩ => ⟨S17000000, .i32⟩
  | .hbm, ⟨53, _⟩ => ⟨S17000000, .i32⟩
  | .hbm, ⟨54, _⟩ => ⟨S17000000x1, .i32⟩
  | .hbm, ⟨55, _⟩ => ⟨S17000000x4, .f32⟩
  | .hbm, ⟨56, _⟩ => ⟨S17000000x1, .f32⟩
  | .hbm, ⟨57, _⟩ => ⟨S17000000x4, .f32⟩
  | .hbm, ⟨58, _⟩ => ⟨S17000000x4, .f32⟩
  | .hbm, ⟨59, _⟩ => ⟨S_, .f32⟩
  | .hbm, ⟨60, _⟩ => ⟨S1000000x4, .f32⟩
  | .hbm, ⟨61, _⟩ => ⟨S17000000x1, .i32⟩
  | .hbm, ⟨62, _⟩ => ⟨S1000000x4, .f32⟩
  | .hbm, ⟨63, _⟩ => ⟨S1x4, .f32⟩
  | .hbm, ⟨64, _⟩ => ⟨S1000000x4, .f32⟩
  | .hbm, ⟨65, _⟩ => ⟨S1000000x4, .f32⟩
  | .hbm, ⟨66, _⟩ => ⟨S_, .f32⟩
  | .hbm, ⟨67, _⟩ => ⟨S1000000x4, .f32⟩
  | .hbm, ⟨68, _⟩ => ⟨S1000000x4, .f32⟩
  | .hbm, ⟨69, _⟩ => ⟨S1000000x2, .f32⟩
  | .hbm, ⟨70, _⟩ => ⟨S_, .i32⟩
  | .hbm, ⟨71, _⟩ => ⟨S17000000, .i32⟩
  | .hbm, ⟨72, _⟩ => ⟨S17000000, .i1⟩
  | .hbm, ⟨73, _⟩ => ⟨S_, .i32⟩
  | .hbm, ⟨74, _⟩ => ⟨S17000000, .i32⟩
  | .hbm, ⟨75, _⟩ => ⟨S17000000, .i32⟩
  | .hbm, ⟨76, _⟩ => ⟨S17000000, .i32⟩
  | .hbm, ⟨77, _⟩ => ⟨S17000000x1, .i32⟩
  | .hbm, ⟨78, _⟩ => ⟨S17000000x2, .f32⟩
  | .hbm, ⟨79, _⟩ => ⟨S17000000x1, .f32⟩
  | .hbm, ⟨80, _⟩ => ⟨S17000000x2, .f32⟩
  | .hbm, ⟨81, _⟩ => ⟨S17000000x2, .f32⟩
  | .hbm, ⟨82, _⟩ => ⟨S_, .f32⟩
  | .hbm, ⟨83, _⟩ => ⟨S1000000x2, .f32⟩
  | .hbm, ⟨84, _⟩ => ⟨S17000000x1, .i32⟩
  | .hbm, ⟨85, _⟩ => ⟨S1000000x2, .f32⟩
  | .hbm, ⟨86, _⟩ => ⟨S1x2, .f32⟩
  | .hbm, ⟨87, _⟩ => ⟨S1000000x2, .f32⟩
  | .hbm, ⟨88, _⟩ => ⟨S1000000x2, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S1000000_S17000000_d0 : Shape.Concatenates [S16000000, S1000000] S17000000 0
  slices_S2x16000000_S1x16000000_1_0 : S2x16000000.Slices ![1, 0] S1x16000000
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S17000000x1_S17000000x2_0_1 : S17000000x1.BroadcastsInDim S17000000x2 (![0, 1] : Fin 2 → Fin S17000000x2.rank)
  bcast_S_S1000000x2 : S_.BroadcastsInDim S1000000x2 (![] : Fin 0 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  dot_S1000000x2_S2x4_S1000000x4_1_0_0_1_n_n_wf : DotDims.WF S1000000x2 S2x4 S1000000x4 [1] [0] [0] [1] [] []
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x2_S1000000x2_1_0_0_1_n_n_wf : DotDims.WF S1000000x4 S4x2 S1000000x2 [1] [0] [0] [1] [] []
  gather_S1000000x2_S17000000x1_S17000000x2_1_0_n_n_0_1_12_wf : GatherDims.WF S1000000x2 S17000000x1 S17000000x2 [1] [0] [] [0] [] 1 ![1, 2]
  scatter_S1000000x2_S17000000x1_S17000000x2_1_0_0_1_wf : ScatterDims.WF S1000000x2 S17000000x1 S17000000x2 [1] [0] [0] 1

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def dot_S1000000x2_S2x4_S1000000x4_1_0_0_1_n_n : DotDims S1000000x2 S2x4 S1000000x4 where
  lhsContracting := [1]
  rhsContracting := [0]
  lhsNonContracting := [0]
  rhsNonContracting := [1]
  lhsBatch := []
  rhsBatch := []
  wf := dot_S1000000x2_S2x4_S1000000x4_1_0_0_1_n_n_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x2_S1000000x2_1_0_0_1_n_n : DotDims S1000000x4 S4x2 S1000000x2 where
  lhsContracting := [1]
  rhsContracting := [0]
  lhsNonContracting := [0]
  rhsNonContracting := [1]
  lhsBatch := []
  rhsBatch := []
  wf := dot_S1000000x4_S4x2_S1000000x2_1_0_0_1_n_n_wf
def gather_S1000000x2_S17000000x1_S17000000x2_1_0_n_n_0_1_12 : GatherDims S1000000x2 S17000000x1 S17000000x2 where
  offsetDims := [1]
  collapsedSliceDims := [0]
  operandBatchingDims := []
  startIndicesBatchingDims := []
  startIndexMap := [0]
  indexVectorDim := 1
  sliceSizes := ![1, 2]
  wf := gather_S1000000x2_S17000000x1_S17000000x2_1_0_n_n_0_1_12_wf
def scatter_S1000000x2_S17000000x1_S17000000x2_1_0_0_1 : ScatterDims S1000000x2 S17000000x1 S17000000x2 where
  updateWindowDims := [1]
  insertedWindowDims := [0]
  scatterDimsToOperandDims := [0]
  indexVectorDim := 1
  wf := scatter_S1000000x2_S17000000x1_S17000000x2_1_0_0_1_wf

class Facts : Prop extends Facts₀ where

variable [Facts]
-- ==== Proof.KerRun.lean ====
/-
  The idealized kernel program's run with its result named. The program is eight segments — three stretches of host
  operations, the first two dense kernels, a stretch, the third kernel, a last reshape — and the buffer contents at
  each boundary are a fold from the launch memory. Every weakly fair execution terminates without a fault, the
  result buffer then holds what the fold gives it at the last boundary, and the six argument arrays are as launched.
-/
import proofs.«166989_j84722524881383_2_alg».proof.Proof.Gen.KernelIdeal.Frame

set_option maxRecDepth 16384

noncomputable section

namespace Cert.Gcn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run_result : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.Ker

end
-- ==== Proof.Spec.lean ====
/-
  A two-layer graph convolution with symmetric degree normalisation, written as two closed forms of the same
  argument arrays: node features x (N × 2), an edge list ei (2 × E integer words: row 0 the sources, row 1 the
  targets), and the two dense layers W1 (2 × 4), b1, W2 (4 × 2), b2.

  An index word w names node n when its signed value is n; a word that names no node contributes to no sum
  (a scatter drops it). Where a row is READ by an index word, a negative word is first shifted by N and the signed
  value is then clamped into [0, N-1] (`rowOf`).

  * The "edges plus explicit self term" arrangement: degrees are (number of edges into n) + 1, the inverse square
    root d(n) of a positive degree, the edge weight ν(e) = d(src e) · d(dst e); layer 1 aggregates the raw features
    first, a(n,k) = Σ_{e → n} x(src e, k) · ν(e) + x(n,k) · d(n)², and then applies the dense layer and the rectifier;
    layer 2 applies the dense layer first and aggregates afterwards, adding the self term and the bias last.
  * The "self-loops appended to the edge list" arrangement: the edge list is extended by the N loops (l, l), degrees
    and weights are taken over the extended list, and both layers apply the dense layer first and aggregate over the
    extended list.

  The two are equal whenever x and W1 hold real numbers (Algebra.lean): the loop l → n contributes exactly when
  l = n, which is the explicit self term, and layer 1 is linear in the features.
-/
import Idealize.ShloMosaic.PureOps.Ideal
import Idealize.ShloMosaic.PureOps.Ideal.Laws
import Idealize.ShloMosaic.Lib.ValueIdx

noncomputable section
open scoped BigOperators

namespace Cert.Gcn

open Idealize.ShloMosaic Idealize.ShloMosaic.ValueIdx

/-- Nodes. -/
abbrev nN : Nat := 1000000
/-- Edges. -/
abbrev nE : Nat := 16000000
/-- Edges followed by one loop per node. -/
abbrev nT : Nat := 17000000

/-- The float zero and one the programs write as bit patterns. -/
def zeroF : EReal := FloatOps.ofBits (F := Ideal) .f32 0x00000000#32
def oneF : EReal := FloatOps.ofBits (F := Ideal) .f32 0x3F800000#32

/-- The inverse square root of a positive degree, and zero otherwise. -/
def invSqrt (d : EReal) : EReal :=
  Scalar.select (FloatOps.cmpf (F := Ideal) (φ := .f32) .ogt d zeroF) (FloatOps.hostUnary (F := Ideal) (φ := .f32) .rsqrt d) zeroF

/-- A negative index word is shifted by the number of nodes before it is read. -/
def wrap (w : BitVec 32) : BitVec 32 := Scalar.select (IntOp.cmpi .slt w 0#32) (IntOp.addi w 1000000#32) w

/-- The row an index word reads: the shifted word's signed value clamped into the rows. -/
def rowOf (w : BitVec 32) : Fin nN := ⟨min (wrap w).toInt.toNat (nN - 1), by unfold nN; omega⟩

section
variable (x : (⟨2, ![1000000, 2]⟩ : Shape).Idx → EReal) (ei : (⟨2, ![2, 16000000]⟩ : Shape).Idx → BitVec 32)
  (W1 : (⟨2, ![2, 4]⟩ : Shape).Idx → EReal) (b1 : (⟨1, ![4]⟩ : Shape).Idx → EReal)
  (W2 : (⟨2, ![4, 2]⟩ : Shape).Idx → EReal) (b2 : (⟨1, ![2]⟩ : Shape).Idx → EReal)

/-- Edge e's source and target words. -/
def src (e : Fin nE) : BitVec 32 := ei (ix2 (0 : Fin 2) e)
def dst (e : Fin nE) : BitVec 32 := ei (ix2 (1 : Fin 2) e)

/-! ## Edges plus an explicit self term -/

/-- Degree: the edges into n, plus one. -/
def deg (n : Fin nN) : EReal :=
  (zeroF + ∑ e : Fin nE, if (dst ei e).toInt = (n.val : Int) then oneF else 0) + oneF

def dinv (n : Fin nN) : EReal := invSqrt (deg ei n)

/-- The weight of edge e. -/
def nu (e : Fin nE) : EReal := dinv ei (rowOf (src ei e)) * dinv ei (rowOf (dst ei e))

/-- Layer 1's aggregated raw features. -/
def agg1 (n : Fin nN) (k : Fin 2) : EReal :=
  (zeroF + ∑ e : Fin nE, if (dst ei e).toInt = (n.val : Int) then x (ix2 (rowOf (src ei e)) k) * nu ei e else 0)
    + x (ix2 n k) * (dinv ei n * dinv ei n)

/-- Layer 1: dense layer and rectifier on the aggregate. -/
def h1 (n : Fin nN) (j : Fin 4) : EReal :=
  max ((∑ k : Fin 2, agg1 x ei n k * W1 (ix2 k j)) + b1 (ix1 j)) zeroF

/-- Layer 2's dense layer. -/
def h2 (n : Fin nN) (j : Fin 2) : EReal := ∑ k : Fin 4, h1 x ei W1 b1 n k * W2 (ix2 k j)

/-- The result: layer 2 aggregated over the edges, the self term, the bias. -/
def out (n : Fin nN) (j : Fin 2) : EReal :=
  ((zeroF + ∑ e : Fin nE, if (dst ei e).toInt = (n.val : Int) then h2 x ei W1 b1 W2 (rowOf (src ei e)) j * nu ei e else 0)
    + h2 x ei W1 b1 W2 n j * (dinv ei n * dinv ei n)) + b2 (ix1 j)

/-! ## Self-loops appended to the edge list -/

/-- The extended lists: the edges, then the loop (l, l) for every node l. -/
def srcT (e : Fin nT) : BitVec 32 := if h : e.val < nE then src ei ⟨e.val, h⟩ else BitVec.ofNat 32 (e.val - nE)
def dstT (e : Fin nT) : BitVec 32 := if h : e.val < nE then dst ei ⟨e.val, h⟩ else BitVec.ofNat 32 (e.val - nE)

def degT (n : Fin nN) : EReal := zeroF + ∑ e : Fin nT, if (dstT ei e).toInt = (n.val : Int) then oneF else 0

def dinvT (n : Fin nN) : EReal := invSqrt (degT ei n)

def nuT (e : Fin nT) : EReal := dinvT ei (rowOf (srcT ei e)) * dinvT ei (rowOf (dstT ei e))

/-- Layer 1's dense layer on the raw features. -/
def xw (n : Fin nN) (j : Fin 4) : EReal := ∑ k : Fin 2, x (ix2 n k) * W1 (ix2 k j)

def h1T (n : Fin nN) (j : Fin 4) : EReal :=
  max ((zeroF + ∑ e : Fin nT, if (dstT ei e).toInt = (n.val : Int) then xw x W1 (rowOf (srcT ei e)) j * nuT ei e else 0)
    + b1 (ix1 j)) zeroF

def h2T (n : Fin nN) (j : Fin 2) : EReal := ∑ k : Fin 4, h1T x ei W1 b1 n k * W2 (ix2 k j)

def outT (n : Fin nN) (j : Fin 2) : EReal :=
  (zeroF + ∑ e : Fin nT, if (dstT ei e).toInt = (n.val : Int) then h2T x ei W1 b1 W2 (rowOf (srcT ei e)) j * nuT ei e else 0)
    + b2 (ix1 j)

end

end Cert.Gcn

end
-- ==== Proof.KerDefs.lean ====
/-
  The host operations around the three dense kernels, as stages (arrays computed from arrays).

  From the edge list ei (2 × E words) the program slices the source row s and the target row d (each E words).
  deg(n) counts the targets equal to n (a scatter-add of ones into zeros, which drops a word that names no node)
  and adds one; dinv is its inverse square root where positive; an index word is read after shifting a negative word
  by N and clamping; the edge weight is dinv at the source row times dinv at the target row. The aggregation of an
  N × 2 array y is, at (n, k): the sum over the edges whose target word names n of y(source row, k) times the edge's
  weight — again a scatter-add into zeros — plus y(n, k) times dinv(n)². It is used twice, on the raw features and
  on the second dense layer's output.
-/
import proofs.«166989_j84722524881383_2_alg».proof.Proof.Gen.KernelIdeal
import proofs.«166989_j84722524881383_2_alg».proof.Proof.Spec
import Idealize.ShloMosaic.Lib.Pipeline.Value
import Idealize.ShloMosaic.Lib.ValueIdx

noncomputable section

namespace Cert.Gcn.Ker

open Cert.KernelIdeal Cert.KernelIdeal.Facts₀ Idealize.ShloMosaic Idealize.ShloMosaic.ValueIdx

/-! ## The stages -/

/-- Row r of the edge list as a vector of E words. -/
def srcA (ei : IVec S2x16000000 32) : IVec S16000000 32 :=
  shapeCast S16000000 (extractStridedSlice S1x16000000 ![0, 0] ei slices_S2x16000000_S1x16000000_0_0) shapeCasts_S1x16000000_S16000000
def dstA (ei : IVec S2x16000000 32) : IVec S16000000 32 :=
  shapeCast S16000000 (extractStridedSlice S1x16000000 ![1, 0] ei slices_S2x16000000_S1x16000000_1_0) shapeCasts_S1x16000000_S16000000

/-- A vector of E words as an E × 1 index column. -/
def colI (v : IVec S16000000 32) : IVec S16000000x1 32 := broadcastInDim S16000000x1 ![0] bcast_S16000000_S16000000x1_0 v

def zeroS : FVec Ideal S_ .f32 := constant S_ .f32 0x00000000#32
def oneS : FVec Ideal S_ .f32 := constant S_ .f32 0x3F800000#32

/-- Degrees: the edges into each node, plus one. -/
def degA (d : IVec S16000000 32) : FVec Ideal S1000000 .f32 :=
  addf (Host.scatterAdd scatter_S1000000_S16000000x1_S16000000_n_0_0_1 (broadcastInDim S1000000 ![] bcast_S_S1000000 zeroS)
      (colI d) (broadcastInDim S16000000 ![] bcast_S_S16000000 oneS))
    (broadcastInDim S1000000 ![] bcast_S_S1000000 oneS)

/-- The inverse square root of the degrees where positive, zero elsewhere. -/
def dinvA (d : IVec S16000000 32) : FVec Ideal S1000000 .f32 :=
  select (cmpf .ogt (degA d) (broadcastInDim S1000000 ![] bcast_S_S1000000 zeroS)) (Host.rsqrt (degA d))
    (broadcastInDim S1000000 ![] bcast_S_S1000000 (id zeroS))

/-- Negative index words shifted by the number of nodes. -/
def wrapA (v : IVec S16000000 32) : IVec S16000000 32 :=
  select (cmpi .slt v (broadcastInDim S16000000 ![] bcast_S_S16000000 (constantI S_ 32 0#32)))
    (addi v (broadcastInDim S16000000 ![] bcast_S_S16000000 (constantI S_ 32 1000000#32))) v

/-- The edge weights, from the array dv of inverse square roots of the degrees. -/
def normA (dv : FVec Ideal S1000000 .f32) (s d : IVec S16000000 32) : FVec Ideal S16000000 .f32 :=
  mulf (Host.gather gather_S1000000_S16000000x1_S16000000_n_0_n_n_0_1_1 dv (colI (wrapA s)))
    (Host.gather gather_S1000000_S16000000x1_S16000000_n_0_n_n_0_1_1 dv (colI (wrapA d)))

/-- The aggregation of an N × 2 array over the edges, with its self term. -/
def convG (y : FVec Ideal S1000000x2 .f32) (s d : IVec S16000000 32) (nrm : FVec Ideal S16000000 .f32) (d2 : FVec Ideal S1000000 .f32) :
    FVec Ideal S1000000x2 .f32 :=
  addf (Host.scatterAdd scatter_S1000000x2_S16000000x1_S16000000x2_1_0_0_1 (broadcastInDim S1000000x2 ![] bcast_S_S1000000x2 zeroS) (colI d)
      (mulf (Host.gather gather_S1000000x2_S16000000x1_S16000000x2_1_0_n_n_0_1_12 y (colI (wrapA s)))
        (broadcastInDim S16000000x2 ![0, 1] bcast_S16000000x1_S16000000x2_0_1 (broadcastInDim S16000000x1 ![0] bcast_S16000000_S16000000x1_0 nrm))))
    (mulf y (broadcastInDim S1000000x2 ![0, 1] bcast_S1000000x1_S1000000x2_0_1 (broadcastInDim S1000000x1 ![0] bcast_S1000000_S1000000x1_0 d2)))

end Cert.Gcn.Ker

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«166989_j84722524881383_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.KerRegions.lean ====
/-
  The three dense kernels of the computation, read entry by entry at the ideal values.

  Kernel 0 takes a block of 10000 rows of the aggregated features a (N × 2), the whole weight W1 (2 × 4) and the
  bias row (1 × 4), and writes the block of relu(a · W1 + b1): entry (p, q) of the block is
  max(Σ_k a(p,k) · W1(k,q) + b1(0,q), 0). Kernel 1 takes a block of 10000 rows of that result and the whole W2 (4 × 2)
  and writes the block of the product. Kernel 2 sees the whole 15625 × 128 re-laid array and the 1 × 128 bias row
  and adds the row to every row. Blocks are consecutive row ranges, block t being rows 10000·t … 10000·t + 9999,
  and together they cover the array; so each output array is one function of the input arrays.
-/
import proofs.«166989_j84722524881383_2_alg».proof.Proof.Gen.KernelIdeal.Frame
import proofs.«166989_j84722524881383_2_alg».proof.Proof.LibPlainLists
import proofs.«166989_j84722524881383_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
open scoped BigOperators

namespace Cert.Gcn.Ker

open Cert.KernelIdeal Cert.KernelIdeal.Gen Idealize.ShloMosaic Idealize.ShloMosaic.TcCoe Idealize.ShloMosaic.ValueIdx
open Idealize.SL.Sem
open Idealize.ShloMosaic.Pipeline (Dat)

/-! ## The bodies at an entry -/

/-- Kernel 0's stored value at (p, q): the rectified dense layer on row p of the block. -/
theorem pay0_at (x0 : Vec Ideal S10000x2 .f32) (x1 : Vec Ideal S2x4 .f32) (x2 : Vec Ideal S1x4 .f32) (p : Fin 10000) (q : Fin 4) :
    k0_pay1 (F := Ideal) x0 x1 x2 (ix2 p q)
      = max ((∑ k : Fin 2, x0 (ix2 p k) * x1 (ix2 k q)) + x2 (ix2 (0 : Fin 1) q)) zeroF := by
  unfold k0_pay1 Idealize.ShloMosaic.matmul
  rw [shapeCast_self, shapeCast_self]
  show max (_ + _) _ = _
  rw [Cert.LibMatmulSum.matmul_zero_at (Cert.LibMatmulSum.Plain.of_lists _ rfl rfl rfl rfl rfl rfl),
    broadcastTo_apply x2 broadcasts_S1x4_S10000x4 (ix2 p q) (ix2 (0 : Fin 1) q) (fun a => match a with
      | ⟨0, _⟩ => by show 0 = if (1 : Nat) = 1 then 0 else _; rw [if_pos rfl]
      | ⟨1, _⟩ => by show q.val = if (4 : Nat) = 1 then 0 else q.val; rw [if_neg (by decide)])]
  rfl

/-- Kernel 1's stored value at (p, q): the product's entry. -/
theorem pay1_at (x0 : Vec Ideal S10000x4 .f32) (x1 : Vec Ideal S4x2 .f32) (p : Fin 10000) (q : Fin 2) :
    k1_pay1 (F := Ideal) x0 x1 (ix2 p q) = ∑ k : Fin 4, x0 (ix2 p k) * x1 (ix2 k q) := by
  unfold k1_pay1 Idealize.ShloMosaic.matmul
  rw [shapeCast_self]
  rw [Cert.LibMatmulSum.matmul_zero_at (Cert.LibMatmulSum.Plain.of_lists _ rfl rfl rfl rfl rfl rfl)]
  rfl

/-- Kernel 2's stored value at (r, l): the entry plus the bias row's entry in the same lane. -/
theorem pay2_at (x0 : Vec Ideal S15625x128 .f32) (x1 : Vec Ideal S1x128 .f32) (r : Fin 15625) (l : Fin 128) :
    k2_pay1 (F := Ideal) x0 x1 (ix2 r l) = x0 (ix2 r l) + x1 (ix2 (0 : Fin 1) l) := by
  unfold k2_pay1
  rw [shapeCast_self, shapeCast_self]
  show _ + _ = _
  rw [broadcastTo_apply x1 broadcasts_S1x128_S15625x128 (ix2 r l) (ix2 (0 : Fin 1) l) (fun a => match a with
      | ⟨0, _⟩ => by show 0 = if (1 : Nat) = 1 then 0 else _; rw [if_pos rfl]
      | ⟨1, _⟩ => by show l.val = if (128 : Nat) = 1 then 0 else l.val; rw [if_neg (by decide)])]

/-! ## Kernel 0: the rectified dense layer, as one function of its three input arrays -/

section Regions
variable (V : (c : Dev nD) → (b : Ref sig .tc) → Buf (Elt Ideal) ((c : Thread nD τ).loc b))

theorem hz : (![0, 0] : Fin 2 → Nat) = fun _ => 0 := funext fun a => by fin_cases a <;> rfl

/-- Row n, column j of relu(a · W + b). -/
def dense0At (a : S1000000x2.Idx → EReal) (w : S2x4.Idx → EReal) (b : S1x4.Idx → EReal) (n : Fin 1000000) (j : Fin 4) : EReal :=
  max ((∑ k : Fin 2, a (ix2 n k) * w (ix2 k j)) + b (ix2 (0 : Fin 1) j)) zeroF

/-- The same as an array. -/
def dense0 (a : S1000000x2.Idx → EReal) (w : S2x4.Idx → EReal) (b : S1x4.Idx → EReal) : S1000000x4.Idx → EReal :=
  fun i => dense0At a w b ⟨(i 0).val, idx2_lt0 i⟩ ⟨(i 1).val, idx2_lt1 i⟩

theorem dense0_at (a : S1000000x2.Idx → EReal) (w : S2x4.Idx → EReal) (b : S1x4.Idx → EReal) (i : S1000000x4.Idx)
    (n : Fin 1000000) (j : Fin 4) (hn : (i 0).val = n.val) (hj : (i 1).val = j.val) : dense0 a w b i = dense0At a w b n j := by
  unfold dense0
  congr 1 <;> exact Fin.ext (by assumption)

/-- Block t of the row-blocked windows is the t-th block of rows; the weight and bias windows stay at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the arrays as the kernel finds them. -/
theorem flushed0_eq (c : Dev nD) (t : Fin cfg0.N) :
    (dat0 V c).flushed 3 t = ((cfg0.win 3).blk t).view.read (Elt Ideal) (dense0 (V c main_v46) (V c main_arg2) (V c main_v47)) := by
  show (cfg0.win 3).cut (grid0.coords t) ((dat0 V c).after 3 t) = _
  rw [after0_3]
  unfold out0_3
  rw [View.canon_unit_zero hz]
  simp only [View.ld_unit_zero (S := S10000x2) hz, View.ld_unit_zero (S := S2x4) hz, View.ld_unit_zero (S := S1x4) hz]
  obtain ⟨e00, e01, e10, e11, e20, e21, e30, e31⟩ := idx_facts0 t
  have tlt : t.val < 100 := N_0 ▸ t.isLt
  funext y
  obtain ⟨p, q, rfl⟩ : ∃ (p : Fin 10000) (q : Fin 4), y = ix2 p q := ⟨y 0, y 1, eq_ix2 y⟩
  refine (pay0_at (iblk0 V c 0 t) (iblk0 V c 1 t) (iblk0 V c 2 t) p q).trans ?_
  have hp : p.val < 10000 := p.isLt
  let n : Fin 1000000 := ⟨t.val * 10000 + p.val, by omega⟩
  have hn : ((((cfg0.win 3).blk t).view.emb (ix2 p q)) 0).val = n.val := by
    show win0_3.index t (0 : Fin 2) * 10000 + 1 * p.val = t.val * 10000 + p.val; omega
  have hj : ((((cfg0.win 3).blk t).view.emb (ix2 p q)) 1).val = q.val := by
    show win0_3.index t (1 : Fin 2) * 4 + 1 * q.val = q.val; omega
  refine Eq.trans ?_ (dense0_at _ _ _ (((cfg0.win 3).blk t).view.emb (ix2 p q)) n q hn hj).symm
  unfold dense0At
  have h0 : ∀ k : Fin 2, iblk0 V c 0 t (ix2 p k) = V c main_v46 (ix2 n k) := fun k => by
    show V c main_v46 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 2 + 1 * k.val = k.val; omega
  have h1 : ∀ k : Fin 2, iblk0 V c 1 t (ix2 k q) = V c main_arg2 (ix2 k q) := fun k => by
    show V c main_arg2 (((cfg0.win 1).blk t).view.emb (ix2 k q)) = _
    refine congrArg _ (funext fun a => Fin.ext ?_)
    match a with
    | ⟨0, _⟩ => show win0_1.index t (0 : Fin 2) * 2 + 1 * k.val = k.val; omega
    | ⟨1, _⟩ => show win0_1.index t (1 : Fin 2) * 4 + 1 * q.val = q.val; omega
  have h2 : iblk0 V c 2 t (ix2 (0 : Fin 1) q) = V c main_v47 (ix2 (0 : Fin 1) q) := by
    show V c main_v47 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 4 + 1 * q.val = q.val; omega
  simp only [h0, h1, h2]

/-- An index is in point t's block iff each coordinate is in the block's range. -/
theorem mem_blk0 (t : Fin cfg0.N) (i : S1000000x4.Idx) :
    i ∈ ((cfg0.win 3).blk t).view.set ↔ ∀ a : Fin 2, win0_3.index t a * S10000x4.size a ≤ (i a).val ∧ (i a).val < win0_3.index t a * S10000x4.size a + S10000x4.size a := by
  show i ∈ ((View.whole main_v48).slice (win0_3.rect t)).set ↔ _
  rw [View.set_slice_whole, Rect.mem_set_unit]
  exact Iff.rfl

/-- Row r lies in the block of point r / 10000. -/
theorem cover0 (i : S1000000x4.Idx) : ∃ t : Fin cfg0.N, (cfg0.win 3).flush t = true ∧ i ∈ ((cfg0.win 3).blk t).view.set := by
  have hi0 : (i 0).val < 1000000 := (i 0).isLt
  have hi1 : (i 1).val < 4 := (i 1).isLt
  have ht : (i 0).val / 10000 < grid0.N := by rw [N_0]; omega
  obtain ⟨-, -, -, -, -, -, e30, e31⟩ := idx_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, ht⟩ (1 : Fin 2) * 4 ≤ (i 1).val ∧ (i 1).val < win0_3.index ⟨(i 0).val / 10000, ht⟩ (1 : Fin 2) * 4 + 4
    rw [e31]; omega

/-- Kernel 0's output array after its run. -/
theorem final0 (c : Dev nD) : (dat0 V c).arrAt 3 cfg0.N = dense0 (V c main_v46) (V c main_arg2) (V c main_v47) :=
  (dat0 V c).arrAt_eq_of_cover 3 _ (fun t _ => flushed0_eq V c t) (cover0)

/-! ## Kernel 1: the plain product -/

/-- Row n, column j of h · W. -/
def dense1At (a : S1000000x4.Idx → EReal) (w : S4x2.Idx → EReal) (n : Fin 1000000) (j : Fin 2) : EReal :=
  ∑ k : Fin 4, a (ix2 n k) * w (ix2 k j)

def dense1 (a : S1000000x4.Idx → EReal) (w : S4x2.Idx → EReal) : S1000000x2.Idx → EReal :=
  fun i => dense1At a w ⟨(i 0).val, idx2_lt0 i⟩ ⟨(i 1).val, idx2_lt1 i⟩

theorem dense1_at (a : S1000000x4.Idx → EReal) (w : S4x2.Idx → EReal) (i : S1000000x2.Idx)
    (n : Fin 1000000) (j : Fin 2) (hn : (i 0).val = n.val) (hj : (i 1).val = j.val) : dense1 a w i = dense1At a w n j := by
  unfold dense1
  congr 1 <;> exact Fin.ext (by assumption)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_eq (c : Dev nD) (t : Fin cfg1.N) :
    (dat1 V c).flushed 2 t = ((cfg1.win 2).blk t).view.read (Elt Ideal) (dense1 (V c main_v48) (V c main_arg4)) := by
  show (cfg1.win 2).cut (grid1.coords t) ((dat1 V c).after 2 t) = _
  rw [after1_2]
  unfold out1_2
  rw [View.canon_unit_zero hz]
  simp only [View.ld_unit_zero (S := S10000x4) hz, View.ld_unit_zero (S := S4x2) hz]
  obtain ⟨e00, e01, e10, e11, e20, e21⟩ := idx_facts1 t
  have tlt : t.val < 100 := N_1 ▸ t.isLt
  funext y
  obtain ⟨p, q, rfl⟩ : ∃ (p : Fin 10000) (q : Fin 2), y = ix2 p q := ⟨y 0, y 1, eq_ix2 y⟩
  refine (pay1_at (iblk1 V c 0 t) (iblk1 V c 1 t) p q).trans ?_
  have hp : p.val < 10000 := p.isLt
  let n : Fin 1000000 := ⟨t.val * 10000 + p.val, by omega⟩
  have hn : ((((cfg1.win 2).blk t).view.emb (ix2 p q)) 0).val = n.val := by
    show win1_2.index t (0 : Fin 2) * 10000 + 1 * p.val = t.val * 10000 + p.val; omega
  have hj : ((((cfg1.win 2).blk t).view.emb (ix2 p q)) 1).val = q.val := by
    show win1_2.index t (1 : Fin 2) * 2 + 1 * q.val = q.val; omega
  refine Eq.trans ?_ (dense1_at _ _ (((cfg1.win 2).blk t).view.emb (ix2 p q)) n q hn hj).symm
  unfold dense1At
  have h0 : ∀ k : Fin 4, iblk1 V c 0 t (ix2 p k) = V c main_v48 (ix2 n k) := fun k => by
    show V c main_v48 (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 4 + 1 * k.val = k.val; omega
  have h1 : ∀ k : Fin 4, iblk1 V c 1 t (ix2 k q) = V c main_arg4 (ix2 k q) := fun k => by
    show V c main_arg4 (((cfg1.win 1).blk t).view.emb (ix2 k q)) = _
    refine congrArg _ (funext fun a => Fin.ext ?_)
    match a with
    | ⟨0, _⟩ => show win1_1.index t (0 : Fin 2) * 4 + 1 * k.val = k.val; omega
    | ⟨1, _⟩ => show win1_1.index t (1 : Fin 2) * 2 + 1 * q.val = q.val; omega
  simp only [h0, h1]

theorem mem_blk1 (t : Fin cfg1.N) (i : S1000000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v49).slice (win1_2.rect t)).set ↔ _
  rw [View.set_slice_whole, Rect.mem_set_unit]
  exact Iff.rfl

theorem cover1 (i : S1000000x2.Idx) : ∃ t : Fin cfg1.N, (cfg1.win 2).flush t = true ∧ i ∈ ((cfg1.win 2).blk t).view.set := by
  have hi0 : (i 0).val < 1000000 := (i 0).isLt
  have hi1 : (i 1).val < 2 := (i 1).isLt
  have ht : (i 0).val / 10000 < grid1.N := by rw [N_1]; omega
  obtain ⟨-, -, -, -, e20, e21⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, ht⟩ (1 : Fin 2) * 2 ≤ (i 1).val ∧ (i 1).val < win1_2.index ⟨(i 0).val / 10000, ht⟩ (1 : Fin 2) * 2 + 2
    rw [e21]; omega

/-- Kernel 1's output array after its run. -/
theorem final1 (c : Dev nD) : (dat1 V c).arrAt 2 cfg1.N = dense1 (V c main_v48) (V c main_arg4) :=
  (dat1 V c).arrAt_eq_of_cover 2 _ (fun t _ => flushed1_eq V c t) (cover1)

/-! ## Kernel 2: the bias row added to every row of the re-laid array -/

def addRowAt (a : S15625x128.Idx → EReal) (b : S1x128.Idx → EReal) (r : Fin 15625) (l : Fin 128) : EReal :=
  a (ix2 r l) + b (ix2 (0 : Fin 1) l)

def addRow (a : S15625x128.Idx → EReal) (b : S1x128.Idx → EReal) : S15625x128.Idx → EReal :=
  fun i => addRowAt a b ⟨(i 0).val, idx2_lt0 i⟩ ⟨(i 1).val, idx2_lt1 i⟩

theorem addRow_at (a : S15625x128.Idx → EReal) (b : S1x128.Idx → EReal) (i : S15625x128.Idx)
    (r : Fin 15625) (l : Fin 128) (hr : (i 0).val = r.val) (hl : (i 1).val = l.val) : addRow a b i = addRowAt a b r l := by
  unfold addRow
  congr 1 <;> exact Fin.ext (by assumption)

theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem flushed2_eq (c : Dev nD) (t : Fin cfg2.N) :
    (dat2 V c).flushed 2 t = ((cfg2.win 2).blk t).view.read (Elt Ideal) (addRow (V c main_v67) (V c main_v71)) := by
  show (cfg2.win 2).cut (grid2.coords t) ((dat2 V c).after 2 t) = _
  rw [after2_2]
  unfold out2_2
  rw [View.canon_unit_zero hz]
  simp only [View.ld_unit_zero (S := S15625x128) hz, View.ld_unit_zero (S := S1x128) hz]
  obtain ⟨e00, e01, e10, e11, e20, e21⟩ := idx_facts2 t
  funext y
  obtain ⟨p, q, rfl⟩ : ∃ (p : Fin 15625) (q : Fin 128), y = ix2 p q := ⟨y 0, y 1, eq_ix2 y⟩
  refine (pay2_at (iblk2 V c 0 t) (iblk2 V c 1 t) p q).trans ?_
  have hn : ((((cfg2.win 2).blk t).view.emb (ix2 p q)) 0).val = p.val := by
    show win2_2.index t (0 : Fin 2) * 15625 + 1 * p.val = p.val; omega
  have hj : ((((cfg2.win 2).blk t).view.emb (ix2 p q)) 1).val = q.val := by
    show win2_2.index t (1 : Fin 2) * 128 + 1 * q.val = q.val; omega
  refine Eq.trans ?_ (addRow_at _ _ (((cfg2.win 2).blk t).view.emb (ix2 p q)) p q hn hj).symm
  unfold addRowAt
  have h0 : iblk2 V c 0 t (ix2 p q) = V c main_v67 (ix2 p q) := by
    show V c main_v67 (((cfg2.win 0).blk t).view.emb (ix2 p q)) = _
    refine congrArg _ (funext fun a => Fin.ext ?_)
    match a with
    | ⟨0, _⟩ => show win2_0.index t (0 : Fin 2) * 15625 + 1 * p.val = p.val; omega
    | ⟨1, _⟩ => show win2_0.index t (1 : Fin 2) * 128 + 1 * q.val = q.val; omega
  have h1 : iblk2 V c 1 t (ix2 (0 : Fin 1) q) = V c main_v71 (ix2 (0 : Fin 1) q) := by
    show V c main_v71 (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  rw [h0, h1]

theorem mem_blk2 (t : Fin cfg2.N) (i : S15625x128.Idx) :
    i ∈ ((cfg2.win 2).blk t).view.set ↔ ∀ a : Fin 2, win2_2.index t a * S15625x128.size a ≤ (i a).val ∧ (i a).val < win2_2.index t a * S15625x128.size a + S15625x128.size a := by
  show i ∈ ((View.whole main_v72).slice (win2_2.rect t)).set ↔ _
  rw [View.set_slice_whole, Rect.mem_set_unit]
  exact Iff.rfl

theorem cover2 (i : S15625x128.Idx) : ∃ t : Fin cfg2.N, (cfg2.win 2).flush t = true ∧ i ∈ ((cfg2.win 2).blk t).view.set := by
  have hi0 : (i 0).val < 15625 := (i 0).isLt
  have hi1 : (i 1).val < 128 := (i 1).isLt
  obtain ⟨-, -, -, -, e20, e21⟩ := idx_facts2 t2_0
  refine ⟨t2_0, flush2_2 _, ?_⟩
  rw [mem_blk2]
  intro a
  match a with
  | ⟨0, _⟩ =>
    show win2_2.index t2_0 (0 : Fin 2) * 15625 ≤ (i 0).val ∧ (i 0).val < win2_2.index t2_0 (0 : Fin 2) * 15625 + 15625
    rw [e20]; omega
  | ⟨1, _⟩ =>
    show win2_2.index t2_0 (1 : Fin 2) * 128 ≤ (i 1).val ∧ (i 1).val < win2_2.index t2_0 (1 : Fin 2) * 128 + 128
    rw [e21]; omega

/-- Kernel 2's output array after its run. -/
theorem final2 (c : Dev nD) : (dat2 V c).arrAt 2 cfg2.N = addRow (V c main_v67) (V c main_v71) :=
  (dat2 V c).arrAt_eq_of_cover 2 _ (fun t _ => flushed2_eq V c t) (cover2)

end Regions

end Cert.Gcn.Ker

end
-- ==== Proof.KerWalk.lean ====
/-
  The kernel program's run, array by array: what each buffer holds at the boundaries between the stretches of host
  operations and the three dense kernels, as the stages applied to the argument arrays.
-/
import proofs.«166989_j84722524881383_2_alg».proof.Proof.Gen.KernelIdeal.Frame
import proofs.«166989_j84722524881383_2_alg».proof.Proof.KerDefs
import proofs.«166989_j84722524881383_2_alg».proof.Proof.KerRegions
import Idealize.ShloMosaic.Lib.StableHlo.Run

set_option maxRecDepth 16384

noncomputable section

namespace Cert.Gcn.Ker

open Cert.KernelIdeal Cert.KernelIdeal.Facts₀ Idealize.ShloMosaic Idealize.ShloMosaic.TcCoe Idealize.ShloMosaic.ValueIdx
open Cert.KernelIdeal.Gen (hostOps0 hostOps0_1 hostOps0_2 hostOps2 hostOps3 W0 W1 W2 W3 W4 W5 W6 W7 W8 V3 V4 V6
  W4_arr W4_of_ne W5_arr W5_of_ne W7_arr W7_of_ne dat0 dat1 dat2)
open Idealize.SL.Sem
open Idealize.ShloMosaic.Pipeline (Dat)
open Idealize.ShloMosaic.StableHlo (after_nil after_cons)

local notation "⟪" b "⟫" => Proc.devRef (Proc.tc) b

/-! ## The first stretch: the edge rows, the degrees -/

section Stretches
variable (W : Valuation τ sig (Elt Ideal))

theorem h0_v1 : StableHlo.after hostOps0 W ⟪main_v1⟫ = srcA (W ⟪main_arg1⟫) := by
  after_results
  rfl

theorem h0_v3 : StableHlo.after hostOps0 W ⟪main_v3⟫ = dstA (W ⟪main_arg1⟫) := by
  after_results
  rfl

theorem h0_v9 : StableHlo.after hostOps0 W ⟪main_v9⟫ = degA (dstA (W ⟪main_arg1⟫)) := by
  after_results
  rfl

theorem h0_v11 : StableHlo.after hostOps0 W ⟪main_v11⟫ =
    cmpf .ogt (degA (dstA (W ⟪main_arg1⟫))) (broadcastInDim S1000000 ![] bcast_S_S1000000 zeroS) := by
  after_results
  rfl

theorem h0_v12 : StableHlo.after hostOps0 W ⟪main_v12⟫ = Host.rsqrt (degA (dstA (W ⟪main_arg1⟫))) := by
  after_results
  rfl

theorem h0_cst3 : StableHlo.after hostOps0 W ⟪main_cst_3⟫ = zeroS := by
  after_results
  rfl

theorem h0_arg0 : StableHlo.after hostOps0 W ⟪main_arg0⟫ = W ⟪main_arg0⟫ := by
  after_results

theorem h0_arg2 : StableHlo.after hostOps0 W ⟪main_arg2⟫ = W ⟪main_arg2⟫ := by
  after_results

theorem h0_arg3 : StableHlo.after hostOps0 W ⟪main_arg3⟫ = W ⟪main_arg3⟫ := by
  after_results

theorem h0_arg4 : StableHlo.after hostOps0 W ⟪main_arg4⟫ = W ⟪main_arg4⟫ := by
  after_results

theorem h0_arg5 : StableHlo.after hostOps0 W ⟪main_arg5⟫ = W ⟪main_arg5⟫ := by
  after_results

/-! ## The second stretch: the inverse square roots -/

theorem h1_v13 : StableHlo.after hostOps0_1 W ⟪main_v13⟫ =
    select (W ⟪main_v11⟫) (W ⟪main_v12⟫) (broadcastInDim S1000000 ![] bcast_S_S1000000 (id (W ⟪main_cst_3⟫))) := by
  after_results
  rfl

theorem h1_v1 : StableHlo.after hostOps0_1 W ⟪main_v1⟫ = W ⟪main_v1⟫ := by
  after_results

theorem h1_v3 : StableHlo.after hostOps0_1 W ⟪main_v3⟫ = W ⟪main_v3⟫ := by
  after_results

theorem h1_arg0 : StableHlo.after hostOps0_1 W ⟪main_arg0⟫ = W ⟪main_arg0⟫ := by
  after_results

theorem h1_arg2 : StableHlo.after hostOps0_1 W ⟪main_arg2⟫ = W ⟪main_arg2⟫ := by
  after_results

theorem h1_arg3 : StableHlo.after hostOps0_1 W ⟪main_arg3⟫ = W ⟪main_arg3⟫ := by
  after_results

theorem h1_arg4 : StableHlo.after hostOps0_1 W ⟪main_arg4⟫ = W ⟪main_arg4⟫ := by
  after_results

theorem h1_arg5 : StableHlo.after hostOps0_1 W ⟪main_arg5⟫ = W ⟪main_arg5⟫ := by
  after_results

/-! ## The third stretch: the edge weights and the first aggregation -/

theorem h2_v14 : StableHlo.after hostOps0_2 W ⟪main_v14⟫ = (mulf (W ⟪main_v13⟫) (W ⟪main_v13⟫) : FVec Ideal S1000000 .f32) := by
  after_results_simp

theorem h2_v29 : StableHlo.after hostOps0_2 W ⟪main_v29⟫ = normA (W ⟪main_v13⟫) (W ⟪main_v1⟫) (W ⟪main_v3⟫) := by
  after_results_simp
  rfl

theorem h2_v46 : StableHlo.after hostOps0_2 W ⟪main_v46⟫ =
    convG (W ⟪main_arg0⟫) (W ⟪main_v1⟫) (W ⟪main_v3⟫) (normA (W ⟪main_v13⟫) (W ⟪main_v1⟫) (W ⟪main_v3⟫))
      (mulf (W ⟪main_v13⟫) (W ⟪main_v13⟫)) := by
  after_results_simp
  rfl

theorem h2_v47 : StableHlo.after hostOps0_2 W ⟪main_v47⟫ = shapeCast S1x4 (W ⟪main_arg3⟫) shapeCasts_S4_S1x4 := by
  after_results_simp
  rfl

theorem h2_v1 : StableHlo.after hostOps0_2 W ⟪main_v1⟫ = W ⟪main_v1⟫ := by
  after_results_simp

theorem h2_v3 : StableHlo.after hostOps0_2 W ⟪main_v3⟫ = W ⟪main_v3⟫ := by
  after_results_simp

theorem h2_arg2 : StableHlo.after hostOps0_2 W ⟪main_arg2⟫ = W ⟪main_arg2⟫ := by
  after_results_simp

theorem h2_arg4 : StableHlo.after hostOps0_2 W ⟪main_arg4⟫ = W ⟪main_arg4⟫ := by
  after_results_simp

theorem h2_arg5 : StableHlo.after hostOps0_2 W ⟪main_arg5⟫ = W ⟪main_arg5⟫ := by
  after_results_simp

/-! ## The stretch between the second and third kernels: the second aggregation, re-laid -/

theorem h3_v67 : StableHlo.after hostOps2 W ⟪main_v67⟫ =
    shapeCast S15625x128 (convG (W ⟪main_v49⟫) (W ⟪main_v1⟫) (W ⟪main_v3⟫) (W ⟪main_v29⟫) (W ⟪main_v14⟫))
      shapeCasts_S1000000x2_S15625x128 := by
  after_results_simp
  rfl

theorem h3_v71 : StableHlo.after hostOps2 W ⟪main_v71⟫ =
    shapeCast S1x128 (shapeCast S128 (broadcastInDim S64x2 ![0, 1] bcast_S1x2_S64x2_0_1
      (shapeCast S1x2 (W ⟪main_arg5⟫) shapeCasts_S2_S1x2)) shapeCasts_S64x2_S128) shapeCasts_S128_S1x128 := by
  after_results_simp
  rfl

/-! ## The last operation: the result laid back out -/

theorem h4_v73 : StableHlo.after hostOps3 W ⟪main_v73⟫ =
    shapeCast S1000000x2 (W ⟪main_v72⟫) shapeCasts_S15625x128_S1000000x2 := by
  after_results
  rfl

end Stretches

/-! ## The chain from the launch memory to the result -/

section Chain
variable (m : (ℓ : Loc nD τ sig) → Buf (Elt Ideal) ℓ) (ρ : Dev nD → PrngReg) (c : Dev nD)

/-- The argument arrays as launched: features, edge list, first weight and bias, second weight and bias. -/
abbrev argX : FVec Ideal S1000000x2 .f32 := m ((c : Thread nD τ).loc main_arg0)
abbrev argE : IVec S2x16000000 32 := m ((c : Thread nD τ).loc main_arg1)
abbrev argW1 : FVec Ideal S2x4 .f32 := m ((c : Thread nD τ).loc main_arg2)
abbrev argB1 : FVec Ideal S4 .f32 := m ((c : Thread nD τ).loc main_arg3)
abbrev argW2 : FVec Ideal S4x2 .f32 := m ((c : Thread nD τ).loc main_arg4)
abbrev argB2 : FVec Ideal S2 .f32 := m ((c : Thread nD τ).loc main_arg5)

/-- The stages over them: source and target rows, inverse square roots of the degrees, edge weights, squared
    inverse square roots; the first aggregation, the two dense layers, the second aggregation; the bias row. -/
abbrev sK : IVec S16000000 32 := srcA (argE m c)
abbrev dK : IVec S16000000 32 := dstA (argE m c)
abbrev dvK : FVec Ideal S1000000 .f32 := dinvA (dK m c)
abbrev nrmK : FVec Ideal S16000000 .f32 := normA (dvK m c) (sK m c) (dK m c)
abbrev d2K : FVec Ideal S1000000 .f32 := mulf (dvK m c) (dvK m c)
abbrev agg1K : FVec Ideal S1000000x2 .f32 := convG (argX m c) (sK m c) (dK m c) (nrmK m c) (d2K m c)
abbrev h1K : S1000000x4.Idx → EReal := dense0 (agg1K m c) (argW1 m c) (shapeCast S1x4 (argB1 m c) shapeCasts_S4_S1x4)
abbrev h2K : S1000000x2.Idx → EReal := dense1 (h1K m c) (argW2 m c)
abbrev agg2K : FVec Ideal S1000000x2 .f32 := convG (h2K m c) (sK m c) (dK m c) (nrmK m c) (d2K m c)
abbrev browK : FVec Ideal S1x128 .f32 :=
  shapeCast S1x128 (shapeCast S128 (broadcastInDim S64x2 ![0, 1] bcast_S1x2_S64x2_0_1
    (shapeCast S1x2 (argB2 m c) shapeCasts_S2_S1x2)) shapeCasts_S64x2_S128) shapeCasts_S128_S1x128

/-! ### After the first stretch -/

theorem W1_v1 : W1 m ρ c ⟪main_v1⟫ = sK m c := h0_v1 (W0 m ρ c)
theorem W1_v3 : W1 m ρ c ⟪main_v3⟫ = dK m c := h0_v3 (W0 m ρ c)
theorem W1_v11 : W1 m ρ c ⟪main_v11⟫ =
    cmpf .ogt (degA (dK m c)) (broadcastInDim S1000000 ![] bcast_S_S1000000 zeroS) := h0_v11 (W0 m ρ c)
theorem W1_v12 : W1 m ρ c ⟪main_v12⟫ = Host.rsqrt (degA (dK m c)) := h0_v12 (W0 m ρ c)
theorem W1_cst3 : W1 m ρ c ⟪main_cst_3⟫ = zeroS := h0_cst3 (W0 m ρ c)
theorem W1_arg0 : W1 m ρ c ⟪main_arg0⟫ = argX m c := h0_arg0 (W0 m ρ c)
theorem W1_arg2 : W1 m ρ c ⟪main_arg2⟫ = argW1 m c := h0_arg2 (W0 m ρ c)
theorem W1_arg3 : W1 m ρ c ⟪main_arg3⟫ = argB1 m c := h0_arg3 (W0 m ρ c)
theorem W1_arg4 : W1 m ρ c ⟪main_arg4⟫ = argW2 m c := h0_arg4 (W0 m ρ c)
theorem W1_arg5 : W1 m ρ c ⟪main_arg5⟫ = argB2 m c := h0_arg5 (W0 m ρ c)

/-! ### After the second stretch -/

theorem W2_v1 : W2 m ρ c ⟪main_v1⟫ = sK m c := (h1_v1 (W1 m ρ c)).trans (W1_v1 m ρ c)
theorem W2_v3 : W2 m ρ c ⟪main_v3⟫ = dK m c := (h1_v3 (W1 m ρ c)).trans (W1_v3 m ρ c)
theorem W2_arg0 : W2 m ρ c ⟪main_arg0⟫ = argX m c := (h1_arg0 (W1 m ρ c)).trans (W1_arg0 m ρ c)
theorem W2_arg2 : W2 m ρ c ⟪main_arg2⟫ = argW1 m c := (h1_arg2 (W1 m ρ c)).trans (W1_arg2 m ρ c)
theorem W2_arg3 : W2 m ρ c ⟪main_arg3⟫ = argB1 m c := (h1_arg3 (W1 m ρ c)).trans (W1_arg3 m ρ c)
theorem W2_arg4 : W2 m ρ c ⟪main_arg4⟫ = argW2 m c := (h1_arg4 (W1 m ρ c)).trans (W1_arg4 m ρ c)
theorem W2_arg5 : W2 m ρ c ⟪main_arg5⟫ = argB2 m c := (h1_arg5 (W1 m ρ c)).trans (W1_arg5 m ρ c)
theorem W2_v13 : W2 m ρ c ⟪main_v13⟫ = dvK m c := by
  refine (h1_v13 (W1 m ρ c)).trans ?_
  rw [W1_v11, W1_v12, W1_cst3]
  rfl

/-! ### After the third stretch: the first kernel's entry -/

theorem W3_v1 : W3 m ρ c ⟪main_v1⟫ = sK m c := (h2_v1 (W2 m ρ c)).trans (W2_v1 m ρ c)
theorem W3_v3 : W3 m ρ c ⟪main_v3⟫ = dK m c := (h2_v3 (W2 m ρ c)).trans (W2_v3 m ρ c)
theorem W3_arg2 : W3 m ρ c ⟪main_arg2⟫ = argW1 m c := (h2_arg2 (W2 m ρ c)).trans (W2_arg2 m ρ c)
theorem W3_arg4 : W3 m ρ c ⟪main_arg4⟫ = argW2 m c := (h2_arg4 (W2 m ρ c)).trans (W2_arg4 m ρ c)
theorem W3_arg5 : W3 m ρ c ⟪main_arg5⟫ = argB2 m c := (h2_arg5 (W2 m ρ c)).trans (W2_arg5 m ρ c)
theorem W3_v14 : W3 m ρ c ⟪main_v14⟫ = d2K m c := by
  refine (h2_v14 (W2 m ρ c)).trans ?_
  rw [W2_v13]
theorem W3_v29 : W3 m ρ c ⟪main_v29⟫ = nrmK m c := by
  refine (h2_v29 (W2 m ρ c)).trans ?_
  rw [W2_v13, W2_v1, W2_v3]
theorem W3_v46 : W3 m ρ c ⟪main_v46⟫ = agg1K m c := by
  refine (h2_v46 (W2 m ρ c)).trans ?_
  rw [W2_arg0, W2_v1, W2_v3, W2_v13]
theorem W3_v47 : W3 m ρ c ⟪main_v47⟫ = shapeCast S1x4 (argB1 m c) shapeCasts_S4_S1x4 := by
  refine (h2_v47 (W2 m ρ c)).trans ?_
  rw [W2_arg3]

/-! ### After the first kernel -/

theorem W4_v48 : W4 m ρ c ⟪main_v48⟫ = h1K m c := by
  refine ((W4_arr m ρ c 3).trans (final0 (V3 m ρ) c)).trans ?_
  show dense0 (W3 m ρ c ⟪main_v46⟫) (W3 m ρ c ⟪main_arg2⟫) (W3 m ρ c ⟪main_v47⟫) = _
  rw [W3_v46, W3_arg2, W3_v47]

/-! ### After the second kernel -/

theorem W5_v49 : W5 m ρ c ⟪main_v49⟫ = h2K m c := by
  refine ((W5_arr m ρ c 2).trans (final1 (V4 m ρ) c)).trans ?_
  show dense1 (W4 m ρ c ⟪main_v48⟫) (W4 m ρ c ⟪main_arg4⟫) = _
  rw [W4_v48, W4_of_ne m ρ c main_arg4 (by decide), W3_arg4]
theorem W5_v1 : W5 m ρ c ⟪main_v1⟫ = sK m c :=
  ((W5_of_ne m ρ c main_v1 (by decide)).trans (W4_of_ne m ρ c main_v1 (by decide))).trans (W3_v1 m ρ c)
theorem W5_v3 : W5 m ρ c ⟪main_v3⟫ = dK m c :=
  ((W5_of_ne m ρ c main_v3 (by decide)).trans (W4_of_ne m ρ c main_v3 (by decide))).trans (W3_v3 m ρ c)
theorem W5_v14 : W5 m ρ c ⟪main_v14⟫ = d2K m c :=
  ((W5_of_ne m ρ c main_v14 (by decide)).trans (W4_of_ne m ρ c main_v14 (by decide))).trans (W3_v14 m ρ c)
theorem W5_v29 : W5 m ρ c ⟪main_v29⟫ = nrmK m c :=
  ((W5_of_ne m ρ c main_v29 (by decide)).trans (W4_of_ne m ρ c main_v29 (by decide))).trans (W3_v29 m ρ c)
theorem W5_arg5 : W5 m ρ c ⟪main_arg5⟫ = argB2 m c :=
  ((W5_of_ne m ρ c main_arg5 (by decide)).trans (W4_of_ne m ρ c main_arg5 (by decide))).trans (W3_arg5 m ρ c)

/-! ### The third kernel's entry, its exit, and the result -/

theorem W6_v67 : W6 m ρ c ⟪main_v67⟫ = shapeCast S15625x128 (agg2K m c) shapeCasts_S1000000x2_S15625x128 := by
  refine (h3_v67 (W5 m ρ c)).trans ?_
  rw [W5_v49, W5_v1, W5_v3, W5_v29, W5_v14]
theorem W6_v71 : W6 m ρ c ⟪main_v71⟫ = browK m c := by
  refine (h3_v71 (W5 m ρ c)).trans ?_
  rw [W5_arg5]

theorem W7_v72 : W7 m ρ c ⟪main_v72⟫ =
    addRow (shapeCast S15625x128 (agg2K m c) shapeCasts_S1000000x2_S15625x128) (browK m c) := by
  refine ((W7_arr m ρ c 2).trans (final2 (V6 m ρ) c)).trans ?_
  show addRow (W6 m ρ c ⟪main_v67⟫) (W6 m ρ c ⟪main_v71⟫) = _
  rw [W6_v67, W6_v71]

/-- THE RESULT BUFFER AT THE RETURN: the second aggregation re-laid, the bias row added to every row, laid back out. -/
theorem W8_v73 : W8 m ρ c ⟪main_v73⟫ =
    shapeCast S1000000x2 (addRow (shapeCast S15625x128 (agg2K m c) shapeCasts_S1000000x2_S15625x128) (browK m c))
      shapeCasts_S15625x128_S1000000x2 := by
  refine (h4_v73 (W7 m ρ c)).trans ?_
  rw [W7_v72]

end Chain

end Cert.Gcn.Ker

end
-- ==== Proof.LibScatterRows.lean ====
/-
  A scatter-add of ROWS, read at an entry. The operand is [N, C] (or [N]); update row e carries one scalar
  index idx[e, 0], read as a signed integer, and is added to operand row idx[e, 0] when that is a row of the
  operand (0 ≤ idx[e, 0] < N) and dropped otherwise. So entry (n, c) of the result is the operand's entry plus
  the sum over all update rows e of: the update's entry (e, c) if idx[e, 0] = n, else 0. The proof reads the
  dimension numbers once — where update index (e, c) lands — and then collapses the sum over update indices
  to the sum over update rows; nothing depends on the sizes N, C, E.
  Then: three arrays joined along the columns, read at a column of each piece.
-/
import Idealize.ShloMosaic.PureOps.Ideal.Laws
import Idealize.ShloMosaic.Lib.ValueIdx
import Idealize.ShloMosaic.Lib.Pipeline.Value
import Idealize.ShloMosaic.Lib.ValueLayout

noncomputable section
open scoped BigOperators
namespace Cert.Val
open Idealize.ShloMosaic Idealize.ShloMosaic.ValueIdx

/-! ## Rows of a rank-2 operand -/

/-- The dimension numbers of a row scatter: operand [N, C], indices [E, 1] with the index vector on axis 1 (one
    scalar per update row) naming operand axis 0, updates [E, C] whose axis 1 is the window (a whole row). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update (e, c) starts at the index idx[e, 0], read signed. -/
theorem rowDims_start_zero (e : Fin E) (c : Fin C) (idx : IVec ⟨2, ![E, 1]⟩ w) :
    (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowDims_start_one (e : Fin E) (c : Fin C) (idx : IVec ⟨2, ![E, 1]⟩ w) :
    (rowDims N C E wf).start (ix2 e c) idx 1 = 0 := rfl

/-- The row axis is inserted: no window coordinate there. -/
theorem rowDims_window_zero (e : Fin E) (c : Fin C) :
    (rowDims N C E wf).window (ix2 e c) 0 = 0 := rfl

/-- On the column axis the window coordinate is the update's column. -/
theorem rowDims_window_one (e : Fin E) (c : Fin C) :
    (rowDims N C E wf).window (ix2 e c) 1 = c.val := rfl

/-- WHERE AN UPDATE LANDS: update (e, c) lands at operand entry (n, c') exactly when its row's index is n and
    the columns agree (an index outside [0, N) lands nowhere). -/
theorem rowDims_resultIdx?_eq_some_iff (e : Fin E) (c : Fin C) (n : Fin N) (c' : Fin C) (idx : IVec ⟨2, ![E, 1]⟩ w) :
    (rowDims N C E wf).resultIdx? (ix2 e c) idx = some (ix2 n c') ↔
      ((idx (ix2 e (0 : Fin 1))).toInt = (n.val : Int) ∧ c = c') := by
  have hs0 := rowDims_start_zero wf e c idx
  have hs1 := rowDims_start_one wf e c idx
  have hw0 := rowDims_window_zero wf e c
  have hw1 := rowDims_window_one wf e c
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      have f1 := congrArg Fin.val (congrFun hf 1)
      simp only [hs0, hw0, hs1, hw1] at f0 f1
      refine ⟨?_, Fin.ext ?_⟩
      · change (v + ((0 : Nat) : Int)).toNat = n.val at f0
        omega
      · change (((0 : Int) + (c.val : Int))).toNat = c'.val at f1
        omega
    · rintro ⟨hv, rfl⟩
      funext a
      refine Fin.ext ?_
      match a with
      | ⟨0, _⟩ =>
        show ((rowDims N C E wf).start (ix2 e c) idx 0 + ((rowDims N C E wf).window (ix2 e c) 0 : Int)).toNat = n.val
        rw [hs0, hw0]; omega
      | ⟨1, _⟩ =>
        show ((rowDims N C E wf).start (ix2 e c) idx 1 + ((rowDims N C E wf).window (ix2 e c) 1 : Int)).toNat = c.val
        rw [hs1, hw1]; omega
  · next h =>
    constructor
    · intro hf; exact absurd hf (by simp)
    · rintro ⟨hv, rfl⟩
      exfalso; apply h
      intro a
      match a with
      | ⟨0, _⟩ =>
        show 0 ≤ (rowDims N C E wf).start (ix2 e c) idx 0 + ((rowDims N C E wf).window (ix2 e c) 0 : Int) ∧
          (rowDims N C E wf).start (ix2 e c) idx 0 + ((rowDims N C E wf).window (ix2 e c) 0 : Int) < (N : Int)
        rw [hs0, hw0]; have := n.isLt; omega
      | ⟨1, _⟩ =>
        show 0 ≤ (rowDims N C E wf).start (ix2 e c) idx 1 + ((rowDims N C E wf).window (ix2 e c) 1 : Int) ∧
          (rowDims N C E wf).start (ix2 e c) idx 1 + ((rowDims N C E wf).window (ix2 e c) 1 : Int) < (C : Int)
        rw [hs1, hw1]; have := c.isLt; omega

/-- THE ROW SCATTER-ADD AT AN ENTRY: the operand's entry plus, over the update rows whose index is the entry's
    row, the update's entry in the same column. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowDims N C E wf) x idx upd (ix2 n c) =
      x (ix2 n c) + ∑ e : Fin E, if (idx (ix2 e (0 : Fin 1))).toInt = (n.val : Int) then upd (ix2 e c) else 0 := by
  show x (ix2 n c) + ∑ j ∈ Finset.univ.filter (fun j => (rowDims N C E wf).resultIdx? j idx = some (ix2 n c)), upd j = _
  congr 1
  rw [Finset.sum_filter, sum_idx2]
  refine Finset.sum_congr rfl fun e _ => ?_
  simp only [rowDims_resultIdx?_eq_some_iff]
  by_cases hv : (idx (ix2 e (0 : Fin 1))).toInt = (n.val : Int)
  · simp only [hv, true_and, if_true]
    rw [Finset.sum_ite_eq' Finset.univ c]
    simp
  · simp only [hv, false_and, if_false]
    exact Finset.sum_const_zero

/-! ## The same for a rank-1 operand: one scalar update per index -/

/-- The dimension numbers of a scatter of scalars: operand [N], indices [E, 1], updates [E] (no window axis). -/
abbrev rowDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

/-- The window of update e starts at the index idx[e, 0], read signed. -/
theorem rowDims1_start_zero (e : Fin E) (idx : IVec ⟨2, ![E, 1]⟩ w) :
    (rowDims1 N E wf1).start (ix1 e) idx 0 = (idx (ix2 e (0 : Fin 1))).toInt := by
  unfold ScatterDims.start
  rw [dif_pos (show (0 : Fin 1) ∈ (rowDims1 N E wf1).scatterDimsToOperandDims from List.mem_singleton.mpr rfl)]
  have hsi : (rowDims1 N E wf1).siIdx (ix1 e) ⟨List.idxOf (0 : Fin 1) (rowDims1 N E wf1).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem rowDims1_window_zero (e : Fin E) : (rowDims1 N E wf1).window (ix1 e) 0 = 0 := rfl

/-- Update e lands at operand entry n exactly when its index is n. -/
theorem rowDims1_resultIdx?_eq_some_iff (e : Fin E) (n : Fin N) (idx : IVec ⟨2, ![E, 1]⟩ w) :
    (rowDims1 N E wf1).resultIdx? (ix1 e) idx = some (ix1 n) ↔ (idx (ix2 e (0 : Fin 1))).toInt = (n.val : Int) := by
  have hs0 := rowDims1_start_zero wf1 e idx
  have hw0 := rowDims1_window_zero wf1 e
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      simp only [hs0, hw0] at f0
      change (v + ((0 : Nat) : Int)).toNat = n.val at f0
      omega
    · intro hv
      funext a
      refine Fin.ext ?_
      match a with
      | ⟨0, _⟩ =>
        show ((rowDims1 N E wf1).start (ix1 e) idx 0 + ((rowDims1 N E wf1).window (ix1 e) 0 : Int)).toNat = n.val
        rw [hs0, hw0]; omega
  · next h =>
    constructor
    · intro hf; exact absurd hf (by simp)
    · intro hv
      exfalso; apply h
      intro a
      match a with
      | ⟨0, _⟩ =>
        show 0 ≤ (rowDims1 N E wf1).start (ix1 e) idx 0 + ((rowDims1 N E wf1).window (ix1 e) 0 : Int) ∧
          (rowDims1 N E wf1).start (ix1 e) idx 0 + ((rowDims1 N E wf1).window (ix1 e) 0 : Int) < (N : Int)
        rw [hs0, hw0]; have := n.isLt; omega

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => ?_)
  exact congrArg f (eq_ix1 i)

/-- THE SCALAR SCATTER-ADD AT AN ENTRY: the operand's entry plus the updates whose index is the entry. -/
theorem scatterAdd_rows1_apply {φ : FTy} (x : FVec Ideal ⟨1, ![N]⟩ φ) (idx : IVec ⟨2, ![E, 1]⟩ w)
    (upd : FVec Ideal ⟨1, ![E]⟩ φ) (n : Fin N) :
    Host.scatterAdd (F := Ideal) (rowDims1 N E wf1) x idx upd (ix1 n) =
      x (ix1 n) + ∑ e : Fin E, if (idx (ix2 e (0 : Fin 1))).toInt = (n.val : Int) then upd (ix1 e) else 0 := by
  show x (ix1 n) + ∑ j ∈ Finset.univ.filter (fun j => (rowDims1 N E wf1).resultIdx? j idx = some (ix1 n)), upd j = _
  congr 1
  rw [Finset.sum_filter, sum_idx1]
  refine Finset.sum_congr rfl fun e _ => ?_
  simp only [rowDims1_resultIdx?_eq_some_iff]

/-! ## Three arrays joined along the columns, read at a column of each -/

section Concat3
variable {α : Type} {R a b c t : Nat}
  (x₁ : (⟨2, ![R, a]⟩ : Shape).Idx → α) (x₂ : (⟨2, ![R, b]⟩ : Shape).Idx → α) (x₃ : (⟨2, ![R, c]⟩ : Shape).Idx → α)
  (h : Shape.Concatenates [⟨2, ![R, a]⟩, ⟨2, ![R, b]⟩, ⟨2, ![R, c]⟩] ⟨2, ![R, t]⟩ 1)

/-- A column of the first piece. -/
theorem concat3_cols_first (r : Fin R) (q : Fin a) (hq : q.val < t) :
    concatenate ⟨2, ![R, t]⟩ 1 [⟨⟨2, ![R, a]⟩, x₁⟩, ⟨⟨2, ![R, b]⟩, x₂⟩, ⟨⟨2, ![R, c]⟩, x₃⟩] h (ix2 r ⟨q.val, hq⟩) = x₁ (ix2 r q) :=
  concatenate_apply_piece 1 [⟨⟨2, ![R, a]⟩, x₁⟩, ⟨⟨2, ![R, b]⟩, x₂⟩, ⟨⟨2, ![R, c]⟩, x₃⟩] h (ix2 r ⟨q.val, hq⟩)
    0 (by simp) ⟨2, ![R, a]⟩ x₁ rfl rfl 0 rfl (ix2 r q)
    (fun ax hax => match ax with
      | ⟨0, _⟩ => rfl
      | ⟨1, _⟩ => absurd rfl hax)
    (by show 0 + q.val = q.val; omega)

/-- A column of the second piece: the first piece's width further on. -/
theorem concat3_cols_second (r : Fin R) (q : Fin b) (hq : a + q.val < t) :
    concatenate ⟨2, ![R, t]⟩ 1 [⟨⟨2, ![R, a]⟩, x₁⟩, ⟨⟨2, ![R, b]⟩, x₂⟩, ⟨⟨2, ![R, c]⟩, x₃⟩] h (ix2 r ⟨a + q.val, hq⟩) = x₂ (ix2 r q) :=
  concatenate_apply_piece 1 [⟨⟨2, ![R, a]⟩, x₁⟩, ⟨⟨2, ![R, b]⟩, x₂⟩, ⟨⟨2, ![R, c]⟩, x₃⟩] h (ix2 r ⟨a + q.val, hq⟩)
    1 (by simp) ⟨2, ![R, b]⟩ x₂ rfl rfl a (by simp) (ix2 r q)
    (fun ax hax => match ax with
      | ⟨0, _⟩ => rfl
      | ⟨1, _⟩ => absurd rfl hax)
    rfl

/-- A column of the third piece: the first two pieces' widths further on. -/
theorem concat3_cols_third (r : Fin R) (q : Fin c) (hq : a + b + q.val < t) :
    concatenate ⟨2, ![R, t]⟩ 1 [⟨⟨2, ![R, a]⟩, x₁⟩, ⟨⟨2, ![R, b]⟩, x₂⟩, ⟨⟨2, ![R, c]⟩, x₃⟩] h (ix2 r ⟨a + b + q.val, hq⟩) = x₃ (ix2 r q) :=
  concatenate_apply_piece 1 [⟨⟨2, ![R, a]⟩, x₁⟩, ⟨⟨2, ![R, b]⟩, x₂⟩, ⟨⟨2, ![R, c]⟩, x₃⟩] h (ix2 r ⟨a + b + q.val, hq⟩)
    2 (by simp) ⟨2, ![R, c]⟩ x₃ rfl rfl (a + b) (by simp) (ix2 r q)
    (fun ax hax => match ax with
      | ⟨0, _⟩ => rfl
      | ⟨1, _⟩ => absurd rfl hax)
    rfl

end Concat3

end Cert.Val
-- ==== Proof.LibGatherRows.lean ====
/-
  Taking rows of a matrix by an integer index column, read at an entry, for any sizes and any element type.

  The host's gather of an  N x C  array at start indices of shape  E x 1  (each start index one row number; the slice a
  whole row: offset axis 1, collapsed axis 0, slice sizes 1 x C) has at entry (e, c) the array's entry (r, c), where
  r is the start index  idx[e, 0]  read as a signed integer and clamped into [0, N - 1].  The row r depends on N and on
  the index column only, not on the row length C: two arrays with the same number of rows, gathered by the same
  index column, are read at the same rows.
-/
import Idealize.ShloMosaic.Lib.Pipeline.Value
import Idealize.ShloMosaic.Lib.ValueIdx

namespace Cert.LibGatherRows

open Idealize.ShloMosaic Idealize.ShloMosaic.ValueIdx

variable {α : Type}

/-- The dimension numbers of a row gather: operand  N x C, start indices  E x 1, result  E x C. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry e of the index column selects among N rows: the signed value, clamped into [0, N - 1]. -/
def rowOf (N : Nat) {E w : Nat} (idx : IVec ⟨2, ![E, 1]⟩ w) (e : Fin E) : Nat :=
  min (idx (ix2 e (⟨0, Nat.one_pos⟩ : Fin 1))).toInt.toNat (N - 1)

theorem rowOf_lt {N : Nat} (hN : 0 < N) {E w : Nat} (idx : IVec ⟨2, ![E, 1]⟩ w) (e : Fin E) : rowOf N idx e < N := by
  unfold rowOf; omega

/-- THE ROW GATHER READ AT (e, c): the operand's entry (rowOf N idx e, c). -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (⟨rowOf N idx e, rowOf_lt hN idx e⟩ : Fin N) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = rowOf N idx e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    unfold GatherDims.start
    rw [dif_neg (show ¬ (1 : Fin 2) ∈ (rowDims N E C wf).startIndexMap from fun h =>
      absurd (show (1 : ℕ) = 0 from congrArg Fin.val (List.mem_singleton.mp h)) Nat.one_ne_zero)]
    simp only [Nat.add_zero, Nat.zero_add]
    rfl

end Cert.LibGatherRows
-- ==== Proof.LibGatherVec.lean ====
/-
  Taking entries of a flat array by an integer index column, read at a position, for any sizes and any element type.

  The host's gather of an array of length N at start indices of shape  E x 1  (each start index one position; the slice
  a single entry: no offset axis, collapsed axis 0, slice size 1) has at position e the array's entry r, where r is the
  start index  idx[e, 0]  read as a signed integer and clamped into [0, N - 1]: the same row a row gather of an
  N-row matrix by the same index column reads.
-/
import Idealize.ShloMosaic.Lib.Pipeline.Value
import Idealize.ShloMosaic.Lib.ValueIdx
import proofs.«166989_j84722524881383_2_alg».proof.Proof.LibGatherRows

namespace Cert.LibGatherVec

open Idealize.ShloMosaic Idealize.ShloMosaic.ValueIdx

variable {α : Type}

/-- The dimension numbers of an entry gather: operand  N, start indices  E x 1, result  E. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the operand's entry at the clamped signed value of idx[e, 0]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) =
      x (ix1 (⟨Cert.LibGatherRows.rowOf N idx e, Cert.LibGatherRows.rowOf_lt hN idx e⟩ : Fin N)) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = Cert.LibGatherRows.rowOf N idx e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl

end Cert.LibGatherVec
-- ==== Proof.KerStages.lean ====
/-
  The host operations around the three dense kernels, read at an index: each stage of KerDefs.lean at an entry, in
  terms of the words and numbers it depends on. A scatter-add into zeros is a masked sum over the edges; a gather
  through shifted and clamped words reads the row `rowOf` of the word.
-/
import proofs.«166989_j84722524881383_2_alg».proof.Proof.KerDefs
import proofs.«166989_j84722524881383_2_alg».proof.Proof.LibScatterRows
import proofs.«166989_j84722524881383_2_alg».proof.Proof.LibGatherRows
import proofs.«166989_j84722524881383_2_alg».proof.Proof.LibGatherVec
import Idealize.ShloMosaic.Lib.Pipeline.Value
import Idealize.ShloMosaic.Lib.ValueIdx
import Idealize.ShloMosaic.Lib.ValueLayout
import Idealize.ShloMosaic.PureOps.Ideal.Laws

noncomputable section
open scoped BigOperators

namespace Cert.Gcn.Ker

open Cert.KernelIdeal Cert.KernelIdeal.Facts₀ Idealize.ShloMosaic Idealize.ShloMosaic.ValueIdx

theorem srcA_at (ei : IVec S2x16000000 32) (e : Fin 16000000) : srcA ei (ix1 e) = ei (ix2 (0 : Fin 2) e) := by
  unfold srcA
  rw [shapeCast_apply _ shapeCasts_S1x16000000_S16000000 (ix1 e) (ix2 (0 : Fin 1) e)
    (by rewrite [Shape.rowMajor_val_two, Shape.rowMajor_val_one]; show 0 * 16000000 + e.val = e.val; omega)]
  exact extractStridedSlice_apply ![0, 0] ei slices_S2x16000000_S1x16000000_0_0 (ix2 (0 : Fin 1) e) (ix2 (0 : Fin 2) e) (fun a => match a with
    | ⟨0, _⟩ => by show 0 = 0 + 0; rfl
    | ⟨1, _⟩ => by show e.val = 0 + e.val; omega)

theorem dstA_at (ei : IVec S2x16000000 32) (e : Fin 16000000) : dstA ei (ix1 e) = ei (ix2 (1 : Fin 2) e) := by
  unfold dstA
  rw [shapeCast_apply _ shapeCasts_S1x16000000_S16000000 (ix1 e) (ix2 (0 : Fin 1) e)
    (by rewrite [Shape.rowMajor_val_two, Shape.rowMajor_val_one]; show 0 * 16000000 + e.val = e.val; omega)]
  exact extractStridedSlice_apply ![1, 0] ei slices_S2x16000000_S1x16000000_1_0 (ix2 (0 : Fin 1) e) (ix2 (1 : Fin 2) e) (fun a => match a with
    | ⟨0, _⟩ => by show 1 = 1 + 0; rfl
    | ⟨1, _⟩ => by show e.val = 0 + e.val; omega)

theorem colI_at (v : IVec S16000000 32) (e : Fin 16000000) : colI v (ix2 e (0 : Fin 1)) = v (ix1 e) := by
  unfold colI
  exact broadcastInDim_apply _ bcast_S16000000_S16000000x1_0 v (ix2 e (0 : Fin 1)) (ix1 e) (fun a => match a with
    | ⟨0, _⟩ => by show e.val = if (16000000 : Nat) = 1 then 0 else e.val; rw [if_neg (by decide)])

/-- A scalar repeated over any shape. -/
theorem splat_at {α : Type} {t : Shape} (h : S_.BroadcastsInDim t ![]) (x : S_.Idx → α) (i : t.Idx) :
    broadcastInDim t ![] h x i = x (fun a => a.elim0) :=
  broadcastInDim_apply _ h x i (fun a => a.elim0) (fun a => a.elim0)

theorem zeroS_at (i : S_.Idx) : zeroS i = zeroF := rfl
theorem idZeroS_at (i : S_.Idx) : id zeroS i = zeroF := rfl
theorem oneS_at (i : S_.Idx) : oneS i = oneF := rfl
theorem constI_at (w : BitVec 32) (i : S_.Idx) : constantI S_ 32 w i = w := rfl

theorem scatter1_eq : scatter_S1000000_S16000000x1_S16000000_n_0_0_1
    = Cert.Val.rowDims1 1000000 16000000 scatter_S1000000_S16000000x1_S16000000_n_0_0_1_wf := rfl
theorem scatter2_eq : scatter_S1000000x2_S16000000x1_S16000000x2_1_0_0_1
    = Cert.Val.rowDims 1000000 2 16000000 scatter_S1000000x2_S16000000x1_S16000000x2_1_0_0_1_wf := rfl
theorem gather1_eq : gather_S1000000_S16000000x1_S16000000_n_0_n_n_0_1_1
    = Cert.LibGatherVec.vecDims 1000000 16000000 gather_S1000000_S16000000x1_S16000000_n_0_n_n_0_1_1_wf := rfl
theorem gather2_eq : gather_S1000000x2_S16000000x1_S16000000x2_1_0_n_n_0_1_12
    = Cert.LibGatherRows.rowDims 1000000 16000000 2 gather_S1000000x2_S16000000x1_S16000000x2_1_0_n_n_0_1_12_wf := rfl

theorem degA_at (d : IVec S16000000 32) (n : Fin 1000000) :
    degA d (ix1 n) = (zeroF + ∑ e : Fin 16000000, if (d (ix1 e)).toInt = (n.val : Int) then oneF else 0) + oneF := by
  unfold degA
  rw [addf_apply, scatter1_eq, Cert.Val.scatterAdd_rows1_apply, splat_at, splat_at, zeroS_at, oneS_at]
  refine congrArg (fun t => (zeroF + t) + oneF) (Finset.sum_congr rfl fun e _ => ?_)
  rw [colI_at, splat_at, oneS_at]

theorem hostRsqrt_at (x : FVec Ideal S1000000 .f32) (i : S1000000.Idx) :
    Host.rsqrt x i = FloatOps.hostUnary (F := Ideal) (φ := .f32) .rsqrt (x i) := rfl

theorem dinvA_at (d : IVec S16000000 32) (n : Fin 1000000) : dinvA d (ix1 n) = invSqrt (degA d (ix1 n)) := by
  unfold dinvA invSqrt
  rw [select_apply, cmpf_apply, hostRsqrt_at, splat_at, splat_at, zeroS_at, idZeroS_at]

theorem cmpi_at (p : CmpIPredicate) (a b : IVec S16000000 32) (i : S16000000.Idx) : cmpi p a b i = IntOp.cmpi p (a i) (b i) := rfl
theorem addi_at (a b : IVec S16000000 32) (i : S16000000.Idx) : addi a b i = IntOp.addi (a i) (b i) := rfl

theorem wrapA_at (v : IVec S16000000 32) (e : Fin 16000000) : wrapA v (ix1 e) = wrap (v (ix1 e)) := by
  unfold wrapA wrap
  rw [select_apply, cmpi_at, addi_at, splat_at, splat_at, constI_at, constI_at]

/-- The row a gather reads for edge e through the shifted words is `rowOf` of the word. -/
theorem row_eq (v : IVec S16000000 32) (e : Fin 16000000) :
    (⟨Cert.LibGatherRows.rowOf 1000000 (colI (wrapA v)) e, Cert.LibGatherRows.rowOf_lt (by decide) _ e⟩ : Fin 1000000) = rowOf (v (ix1 e)) := by
  apply Fin.ext
  show min ((colI (wrapA v)) (ix2 e (⟨0, Nat.one_pos⟩ : Fin 1))).toInt.toNat (1000000 - 1) = min (wrap (v (ix1 e))).toInt.toNat (nN - 1)
  rw [show (⟨0, Nat.one_pos⟩ : Fin 1) = (0 : Fin 1) from rfl, colI_at, wrapA_at]

theorem gatherVec_at (x : FVec Ideal S1000000 .f32) (v : IVec S16000000 32) (e : Fin 16000000) :
    Host.gather gather_S1000000_S16000000x1_S16000000_n_0_n_n_0_1_1 x (colI (wrapA v)) (ix1 e) = x (ix1 (rowOf (v (ix1 e)))) := by
  rw [gather1_eq, Cert.LibGatherVec.gather_vec_apply (by decide), row_eq]

theorem gatherRows_at (y : FVec Ideal S1000000x2 .f32) (v : IVec S16000000 32) (e : Fin 16000000) (k : Fin 2) :
    Host.gather gather_S1000000x2_S16000000x1_S16000000x2_1_0_n_n_0_1_12 y (colI (wrapA v)) (ix2 e k) = y (ix2 (rowOf (v (ix1 e))) k) := by
  rw [gather2_eq, Cert.LibGatherRows.gather_rows_apply (by decide), row_eq]

theorem normA_at (dv : FVec Ideal S1000000 .f32) (s d : IVec S16000000 32) (e : Fin 16000000) :
    normA dv s d (ix1 e) = dv (ix1 (rowOf (s (ix1 e)))) * dv (ix1 (rowOf (d (ix1 e)))) := by
  unfold normA
  rw [mulf_apply, gatherVec_at, gatherVec_at]

/-- An E-vector repeated along 2 columns. -/
theorem rows2_at (v : FVec Ideal S16000000 .f32) (e : Fin 16000000) (k : Fin 2) :
    broadcastInDim S16000000x2 ![0, 1] bcast_S16000000x1_S16000000x2_0_1 (broadcastInDim S16000000x1 ![0] bcast_S16000000_S16000000x1_0 v) (ix2 e k) = v (ix1 e) := by
  rw [broadcastInDim_apply _ bcast_S16000000x1_S16000000x2_0_1 _ (ix2 e k) (ix2 e (0 : Fin 1)) (fun a => match a with
    | ⟨0, _⟩ => by show e.val = if (16000000 : Nat) = 1 then 0 else e.val; rw [if_neg (by decide)]
    | ⟨1, _⟩ => by show 0 = if (1 : Nat) = 1 then 0 else k.val; rw [if_pos rfl])]
  exact broadcastInDim_apply _ bcast_S16000000_S16000000x1_0 v (ix2 e (0 : Fin 1)) (ix1 e) (fun a => match a with
    | ⟨0, _⟩ => by show e.val = if (16000000 : Nat) = 1 then 0 else e.val; rw [if_neg (by decide)])

/-- An N-vector repeated along 2 columns. -/
theorem nodes2_at (v : FVec Ideal S1000000 .f32) (n : Fin 1000000) (k : Fin 2) :
    broadcastInDim S1000000x2 ![0, 1] bcast_S1000000x1_S1000000x2_0_1 (broadcastInDim S1000000x1 ![0] bcast_S1000000_S1000000x1_0 v) (ix2 n k) = v (ix1 n) := by
  rw [broadcastInDim_apply _ bcast_S1000000x1_S1000000x2_0_1 _ (ix2 n k) (ix2 n (0 : Fin 1)) (fun a => match a with
    | ⟨0, _⟩ => by show n.val = if (1000000 : Nat) = 1 then 0 else n.val; rw [if_neg (by decide)]
    | ⟨1, _⟩ => by show 0 = if (1 : Nat) = 1 then 0 else k.val; rw [if_pos rfl])]
  exact broadcastInDim_apply _ bcast_S1000000_S1000000x1_0 v (ix2 n (0 : Fin 1)) (ix1 n) (fun a => match a with
    | ⟨0, _⟩ => by show n.val = if (1000000 : Nat) = 1 then 0 else n.val; rw [if_neg (by decide)])

/-- THE AGGREGATION AT AN ENTRY. -/
theorem convG_at (y : FVec Ideal S1000000x2 .f32) (s d : IVec S16000000 32) (nrm : FVec Ideal S16000000 .f32) (d2 : FVec Ideal S1000000 .f32)
    (n : Fin 1000000) (k : Fin 2) :
    convG y s d nrm d2 (ix2 n k)
      = (zeroF + ∑ e : Fin 16000000, if (d (ix1 e)).toInt = (n.val : Int) then y (ix2 (rowOf (s (ix1 e))) k) * nrm (ix1 e) else 0)
        + y (ix2 n k) * d2 (ix1 n) := by
  unfold convG
  rw [addf_apply, mulf_apply, scatter2_eq, Cert.Val.scatterAdd_rows_apply, splat_at, nodes2_at, zeroS_at]
  refine congrArg (fun t => (zeroF + t) + y (ix2 n k) * d2 (ix1 n)) (Finset.sum_congr rfl fun e _ => ?_)
  rw [colI_at, mulf_apply, gatherRows_at, rows2_at]

end Cert.Gcn.Ker

end
-- ==== Proof.KerTail.lean ====
/-
  The re-laying of the result around the last stage, read entry by entry.

  Entry (n, j) of an  N x 2  array sits at row-major position  2n + j;  laid out as  15625 x 128  that position is
  row  (2n + j) / 128,  lane  (2n + j) % 128.  The bias row's lane l holds the bias at  l % 2  (the  1 x 2  row repeated
  64 times and flattened), and since 128 is even,  (2n + j) % 128 % 2 = j.  So adding the bias row to every row of the
  re-laid array and laying the sum back out as  N x 2  adds  b2[j]  to entry (n, j).
-/
import proofs.«166989_j84722524881383_2_alg».proof.Proof.Gen.KernelIdeal
import Idealize.ShloMosaic.Lib.Pipeline.Value
import Idealize.ShloMosaic.Lib.ValueIdx
import Idealize.ShloMosaic.PureOps.Ideal.Laws

noncomputable section

namespace Cert.Gcn.Ker

open Cert.KernelIdeal Cert.KernelIdeal.Facts₀ Idealize.ShloMosaic Idealize.ShloMosaic.ValueIdx

/-- A flat array of four laid out as one row, read at a lane. -/
theorem b1row_at (b1 : FVec Ideal S4 .f32) (k : Fin 4) :
    shapeCast S1x4 b1 shapeCasts_S4_S1x4 (ix2 (0 : Fin 1) k) = b1 (ix1 k) := by
  refine shapeCast_apply b1 shapeCasts_S4_S1x4 (ix2 (0 : Fin 1) k) (ix1 k) ?_
  rw [Shape.rowMajor_val_two, Shape.rowMajor_val_one]
  show k.val = 0 * 4 + k.val
  omega

/-- The bias row: lane l holds the bias at l % 2. -/
theorem brow_at (b2 : FVec Ideal S2 .f32) (l : Fin 128) :
    shapeCast S1x128 (shapeCast S128 (broadcastInDim S64x2 ![0, 1] bcast_S1x2_S64x2_0_1
        (shapeCast S1x2 b2 shapeCasts_S2_S1x2)) shapeCasts_S64x2_S128) shapeCasts_S128_S1x128 (ix2 (0 : Fin 1) l) =
      b2 (ix1 (⟨l.val % 2, Nat.mod_lt _ (by decide)⟩ : Fin 2)) := by
  have hl := l.isLt
  rw [shapeCast_apply _ shapeCasts_S128_S1x128 (ix2 (0 : Fin 1) l) (ix1 l)
    (by rw [Shape.rowMajor_val_two, Shape.rowMajor_val_one]; show l.val = 0 * 128 + l.val; omega)]
  rw [shapeCast_apply _ shapeCasts_S64x2_S128 (ix1 l)
    (ix2 (⟨l.val / 2, by omega⟩ : Fin 64) (⟨l.val % 2, Nat.mod_lt _ (by decide)⟩ : Fin 2))
    (by rw [Shape.rowMajor_val_two, Shape.rowMajor_val_one]; show l.val / 2 * 2 + l.val % 2 = l.val; omega)]
  rw [broadcastInDim_apply ![0, 1] bcast_S1x2_S64x2_0_1 _ _
    (ix2 (0 : Fin 1) (⟨l.val % 2, Nat.mod_lt _ (by decide)⟩ : Fin 2))
    (fun a => match a with
      | ⟨0, _⟩ => by show 0 = if (1 : Nat) = 1 then 0 else l.val / 2; rw [if_pos rfl]
      | ⟨1, _⟩ => by show l.val % 2 = if (2 : Nat) = 1 then 0 else l.val % 2; rw [if_neg (by decide)])]
  exact shapeCast_apply b2 shapeCasts_S2_S1x2 _ (ix1 (⟨l.val % 2, Nat.mod_lt _ (by decide)⟩ : Fin 2))
    (by rw [Shape.rowMajor_val_two, Shape.rowMajor_val_one]; show l.val % 2 = 0 * 2 + l.val % 2; omega)

/-- THE TAIL AT (n, j): the re-laid array plus the bias row, laid back out, is the array's entry plus b2[j]. -/
theorem tail_at (Y : FVec Ideal S1000000x2 .f32) (b2 : FVec Ideal S2 .f32) (R : FVec Ideal S15625x128 .f32)
    (hR : ∀ (r : Fin 15625) (l : Fin 128), R (ix2 r l) = shapeCast S15625x128 Y shapeCasts_S1000000x2_S15625x128 (ix2 r l)
        + shapeCast S1x128 (shapeCast S128 (broadcastInDim S64x2 ![0, 1] bcast_S1x2_S64x2_0_1
            (shapeCast S1x2 b2 shapeCasts_S2_S1x2)) shapeCasts_S64x2_S128) shapeCasts_S128_S1x128 (ix2 (0 : Fin 1) l))
    (n : Fin 1000000) (j : Fin 2) :
    shapeCast S1000000x2 R shapeCasts_S15625x128_S1000000x2 (ix2 n j) = Y (ix2 n j) + b2 (ix1 j) := by
  have hn := n.isLt
  have hj := j.isLt
  have hr : (2 * n.val + j.val) / 128 < 15625 := by omega
  have hl : (2 * n.val + j.val) % 128 < 128 := Nat.mod_lt _ (by decide)
  rw [shapeCast_apply R shapeCasts_S15625x128_S1000000x2 (ix2 n j)
    (ix2 (⟨(2 * n.val + j.val) / 128, hr⟩ : Fin 15625) (⟨(2 * n.val + j.val) % 128, hl⟩ : Fin 128))
    (by rw [Shape.rowMajor_val_two, Shape.rowMajor_val_two]
        show (2 * n.val + j.val) / 128 * 128 + (2 * n.val + j.val) % 128 = n.val * 2 + j.val
        omega)]
  rw [hR, brow_at]
  rw [shapeCast_apply Y shapeCasts_S1000000x2_S15625x128 _ (ix2 n j)
    (by rw [Shape.rowMajor_val_two, Shape.rowMajor_val_two]
        show n.val * 2 + j.val = (2 * n.val + j.val) / 128 * 128 + (2 * n.val + j.val) % 128
        omega)]
  congr 2
  exact congrArg ix1 (Fin.ext (by show (2 * n.val + j.val) % 128 % 2 = j.val; omega))

end Cert.Gcn.Ker

end
-- ==== Proof.KerSpec.lean ====
/-
  The kernel program's stages are the specification's quantities: with s, d the source and target rows of the edge
  list, the stage degrees are `deg`, their inverse square roots `dinv`, the edge weights `nu`, the aggregation of the
  raw features `agg1`, the rectified dense layer on it `h1`, the second dense layer `h2`.
-/
import proofs.«166989_j84722524881383_2_alg».proof.Proof.KerStages
import proofs.«166989_j84722524881383_2_alg».proof.Proof.KerRegions
import proofs.«166989_j84722524881383_2_alg».proof.Proof.KerTail

noncomputable section
open scoped BigOperators

namespace Cert.Gcn.Ker

open Cert.KernelIdeal Cert.KernelIdeal.Facts₀ Idealize.ShloMosaic Idealize.ShloMosaic.ValueIdx

variable (x : FVec Ideal S1000000x2 .f32) (ei : IVec S2x16000000 32) (W1 : FVec Ideal S2x4 .f32) (b1 : FVec Ideal S4 .f32)
  (W2 : FVec Ideal S4x2 .f32) (b2 : FVec Ideal S2 .f32)

theorem deg_spec (n : Fin 1000000) : degA (dstA ei) (ix1 n) = deg ei n := by
  rw [degA_at]
  unfold deg dst
  refine congrArg (fun t => (zeroF + t) + oneF) (Finset.sum_congr rfl fun e _ => ?_)
  rw [dstA_at]

theorem dinv_spec (n : Fin 1000000) : dinvA (dstA ei) (ix1 n) = dinv ei n := by
  rw [dinvA_at, deg_spec]
  unfold dinv
  rfl

theorem nu_spec (e : Fin 16000000) : normA (dinvA (dstA ei)) (srcA ei) (dstA ei) (ix1 e) = nu ei e := by
  rw [normA_at, dinv_spec, dinv_spec, srcA_at, dstA_at]
  unfold nu src dst
  rfl

theorem d2_spec (n : Fin 1000000) : mulf (dinvA (dstA ei)) (dinvA (dstA ei)) (ix1 n) = dinv ei n * dinv ei n := by
  rw [mulf_apply, dinv_spec]

/-- The aggregation of any N × 2 array y over the edges, in the specification's words. -/
theorem conv_spec (y : FVec Ideal S1000000x2 .f32) (n : Fin 1000000) (k : Fin 2) :
    convG y (srcA ei) (dstA ei) (normA (dinvA (dstA ei)) (srcA ei) (dstA ei)) (mulf (dinvA (dstA ei)) (dinvA (dstA ei))) (ix2 n k)
      = (zeroF + ∑ e : Fin 16000000, if (dst ei e).toInt = (n.val : Int) then y (ix2 (rowOf (src ei e)) k) * nu ei e else 0)
        + y (ix2 n k) * (dinv ei n * dinv ei n) := by
  rw [convG_at, d2_spec]
  refine congrArg (fun t => (zeroF + t) + y (ix2 n k) * (dinv ei n * dinv ei n)) (Finset.sum_congr rfl fun e _ => ?_)
  rw [dstA_at, srcA_at, nu_spec]
  unfold src dst
  rfl

/-- The aggregated raw features. -/
abbrev aggA : FVec Ideal S1000000x2 .f32 :=
  convG x (srcA ei) (dstA ei) (normA (dinvA (dstA ei)) (srcA ei) (dstA ei)) (mulf (dinvA (dstA ei)) (dinvA (dstA ei)))

theorem agg_spec (n : Fin 1000000) (k : Fin 2) : aggA x ei (ix2 n k) = agg1 x ei n k := by
  unfold aggA
  rw [conv_spec]
  unfold agg1
  rfl

/-- Layer 1 as the first kernel leaves it. -/
abbrev h1A : S1000000x4.Idx → EReal := dense0 (aggA x ei) W1 (shapeCast S1x4 b1 shapeCasts_S4_S1x4)

theorem h1_spec (n : Fin 1000000) (j : Fin 4) : h1A x ei W1 b1 (ix2 n j) = h1 x ei W1 b1 n j := by
  unfold h1A
  rw [dense0_at _ _ _ (ix2 n j) n j rfl rfl]
  unfold dense0At h1
  rw [b1row_at]
  refine congrArg (fun t => max (t + b1 (ix1 j)) zeroF) (Finset.sum_congr rfl fun k _ => ?_)
  rw [agg_spec]

/-- Layer 2's dense layer as the second kernel leaves it. -/
abbrev h2A : S1000000x2.Idx → EReal := dense1 (h1A x ei W1 b1) W2

theorem h2_spec (n : Fin 1000000) (j : Fin 2) : h2A x ei W1 b1 W2 (ix2 n j) = h2 x ei W1 b1 W2 n j := by
  unfold h2A
  rw [dense1_at _ _ (ix2 n j) n j rfl rfl]
  unfold dense1At h2
  refine Finset.sum_congr rfl fun k _ => ?_
  rw [h1_spec]

/-- The aggregation of layer 2 plus the bias is the specification's result. -/
theorem out_spec (n : Fin 1000000) (j : Fin 2) :
    convG (h2A x ei W1 b1 W2) (srcA ei) (dstA ei) (normA (dinvA (dstA ei)) (srcA ei) (dstA ei)) (mulf (dinvA (dstA ei)) (dinvA (dstA ei))) (ix2 n j)
      + b2 (ix1 j) = out x ei W1 b1 W2 b2 n j := by
  rw [conv_spec]
  unfold out
  have hs : (∑ e : Fin 16000000, if (dst ei e).toInt = (n.val : Int) then h2A x ei W1 b1 W2 (ix2 (rowOf (src ei e)) j) * nu ei e else 0)
      = ∑ e : Fin 16000000, if (dst ei e).toInt = (n.val : Int) then h2 x ei W1 b1 W2 (rowOf (src ei e)) j * nu ei e else 0 :=
    Finset.sum_congr rfl fun e _ => by rw [h2_spec]
  rw [hs, h2_spec]

end Cert.Gcn.Ker

end
-- ==== Proof.KerOut.lean ====
/-
  The idealized kernel program's result, entry by entry: what the result buffer holds at the last boundary is the
  two-layer graph convolution of the launch contents of the six arguments, in the "edges plus explicit self term"
  arrangement. The fold gives the last boundary's contents as the re-laid third kernel's output; reading the re-laying
  at (n, j) leaves the aggregation of the second dense layer at (n, j) plus the bias at j, which is the
  specification's `out`.
-/
import proofs.«166989_j84722524881383_2_alg».proof.Proof.KerWalk
import proofs.«166989_j84722524881383_2_alg».proof.Proof.KerSpec
import proofs.«166989_j84722524881383_2_alg».proof.Proof.KerTail

noncomputable section

namespace Cert.Gcn.Ker

open Cert.KernelIdeal Cert.KernelIdeal.Gen Idealize.ShloMosaic Idealize.ShloMosaic.TcCoe Idealize.ShloMosaic.ValueIdx Idealize.SL.Sem

theorem kernel_at (m : (ℓ : Loc nD τ sig) → Buf (Elt Ideal) ℓ) (ρ : Dev nD → PrngReg) (c : Dev nD) (n : Fin 1000000) (j : Fin 2) :
    W8 m ρ c (Proc.devRef .tc main_v73) (ix2 n j)
      = Cert.Gcn.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) n j := by
  rw [W8_v73 m ρ c]
  refine (tail_at _ _ _ (fun r l => (addRow_at _ _ (ix2 r l) r l rfl rfl).trans rfl) n j).trans ?_
  exact out_spec (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) n j

end Cert.Gcn.Ker

end
-- ==== Proof.LibConcatTwo.lean ====
/-
  Two flat arrays laid end to end, read at a position, for any lengths and any element type.

  The concatenation of  x₁ : [a]  and  x₂ : [b]  along their one axis is an array of length  t = a + b.  At position p
  it holds  x₁[p]  when  p < a,  and  x₂[p - a]  otherwise.
-/
import Idealize.ShloMosaic.Lib.Pipeline.Value
import Idealize.ShloMosaic.Lib.ValueIdx

namespace Cert.LibConcatTwo

open Idealize.ShloMosaic Idealize.ShloMosaic.ValueIdx

variable {α : Type} {a b t : Nat}

/-- The lengths add up. -/
theorem length_eq (h : Shape.Concatenates [(⟨1, ![a]⟩ : Shape), ⟨1, ![b]⟩] ⟨1, ![t]⟩ 0) : a + b = t := by
  have h3 := h.2.2
  simpa using h3

/-- A position below the first length reads the first piece there. -/
theorem concat_two_left (x₁ : (⟨1, ![a]⟩ : Shape).Idx → α) (x₂ : (⟨1, ![b]⟩ : Shape).Idx → α)
    (h : Shape.Concatenates [(⟨1, ![a]⟩ : Shape), ⟨1, ![b]⟩] ⟨1, ![t]⟩ 0) (p : Fin t) (hp : p.val < a) :
    concatenate ⟨1, ![t]⟩ 0 [⟨⟨1, ![a]⟩, x₁⟩, ⟨⟨1, ![b]⟩, x₂⟩] h (ix1 p) = x₁ (ix1 ⟨p.val, hp⟩) :=
  concatenate_pair_apply_left 0 x₁ x₂ h (ix1 p) rfl (ix1 ⟨p.val, hp⟩)
    (fun c => match c with
      | ⟨0, _⟩ => rfl)

/-- A position at or past the first length reads the second piece, the first length further back. -/
theorem concat_two_right (x₁ : (⟨1, ![a]⟩ : Shape).Idx → α) (x₂ : (⟨1, ![b]⟩ : Shape).Idx → α)
    (h : Shape.Concatenates [(⟨1, ![a]⟩ : Shape), ⟨1, ![b]⟩] ⟨1, ![t]⟩ 0) (p : Fin t) (hp : ¬ p.val < a)
    (hq : p.val - a < b) :
    concatenate ⟨1, ![t]⟩ 0 [⟨⟨1, ![a]⟩, x₁⟩, ⟨⟨1, ![b]⟩, x₂⟩] h (ix1 p) = x₂ (ix1 ⟨p.val - a, hq⟩) :=
  concatenate_pair_apply_right 0 x₁ x₂ h (ix1 p) rfl rfl (ix1 ⟨p.val - a, hq⟩)
    (fun c hc => match c with
      | ⟨0, _⟩ => absurd rfl hc)
    (by show p.val - a + a = p.val; omega)

/-- THE TWO-PIECE CONCATENATION READ AT p. -/
theorem concat_two_apply (x₁ : (⟨1, ![a]⟩ : Shape).Idx → α) (x₂ : (⟨1, ![b]⟩ : Shape).Idx → α)
    (h : Shape.Concatenates [(⟨1, ![a]⟩ : Shape), ⟨1, ![b]⟩] ⟨1, ![t]⟩ 0) (p : Fin t) :
    concatenate ⟨1, ![t]⟩ 0 [⟨⟨1, ![a]⟩, x₁⟩, ⟨⟨1, ![b]⟩, x₂⟩] h (ix1 p) =
      if hp : p.val < a then x₁ (ix1 ⟨p.val, hp⟩)
      else x₂ (ix1 ⟨p.val - a, by have := length_eq h; have := p.isLt; omega⟩) := by
  by_cases hp : p.val < a
  · rw [dif_pos hp]; exact concat_two_left x₁ x₂ h p hp
  · rw [dif_neg hp]; exact concat_two_right x₁ x₂ h p hp _

end Cert.LibConcatTwo
-- ==== Proof.RefWords.lean ====
import proofs.«166989_j84722524881383_2_alg».proof.Proof.RefRead
import proofs.«166989_j84722524881383_2_alg».proof.Proof.Spec
import proofs.«166989_j84722524881383_2_alg».proof.Proof.LibScatterRows
import proofs.«166989_j84722524881383_2_alg».proof.Proof.LibGatherRows
import proofs.«166989_j84722524881383_2_alg».proof.Proof.LibGatherVec
import proofs.«166989_j84722524881383_2_alg».proof.Proof.LibConcatTwo

noncomputable section
open scoped BigOperators

namespace Cert.Gcn.Ref

open Idealize.ShloMosaic Idealize.ShloMosaic.ValueIdx Cert.ReferenceIdeal Cert.ReferenceIdeal.ReadP

variable (ei : (⟨S2x16000000, .i32⟩ : BufTy).Contents (Elt Ideal))

/-! ## The extended edge lists -/

/-- Row 0 of the edge array, flattened, at e. -/
theorem v2_at (e : Fin 16000000) : val_main_v2 (F := Ideal) ei (ix1 e) = src ei e := by
  rw [val_main_v2_apply, val_main_v1_apply]
  unfold src
  congr 1
  funext a
  refine Fin.ext ?_
  match a with
  | ⟨0, _⟩ => rfl
  | ⟨1, _⟩ => show e.val % 16000000 = e.val; omega

/-- Row 1 of the edge array, flattened, at e. -/
theorem v5_at (e : Fin 16000000) : val_main_v5 (F := Ideal) ei (ix1 e) = dst ei e := by
  rw [val_main_v5_apply, val_main_v4_apply]
  unfold dst
  congr 1
  funext a
  refine Fin.ext ?_
  match a with
  | ⟨0, _⟩ => rfl
  | ⟨1, _⟩ => show e.val % 16000000 = e.val; omega

/-- The sources followed by the node numbers. -/
theorem v3_at (e : Fin 17000000) : val_main_v3 (F := Ideal) ei (ix1 e) = srcT ei e := by
  unfold val_main_v3 srcT
  rw [Cert.LibConcatTwo.concat_two_apply]
  by_cases h : e.val < 16000000
  · rw [dif_pos h, dif_pos h, v2_at]
  · rw [dif_neg h, dif_neg h]; rfl

/-- The targets followed by the node numbers. -/
theorem v6_at (e : Fin 17000000) : val_main_v6 (F := Ideal) ei (ix1 e) = dstT ei e := by
  unfold val_main_v6 dstT
  rw [Cert.LibConcatTwo.concat_two_apply]
  by_cases h : e.val < 16000000
  · rw [dif_pos h, dif_pos h, v5_at]
  · rw [dif_neg h, dif_neg h]; rfl

/-! ## Degrees and their inverse square roots -/

/-- The index column of the degree scatter holds the targets. -/
theorem v9_at (e : Fin 17000000) : val_main_v9 (F := Ideal) ei (ix2 e (0 : Fin 1)) = dstT ei e := by
  rw [val_main_v9_apply, ← v6_at]
  congr 1
  funext a
  match a with
  | ⟨0, _⟩ => rfl

/-- The degrees over the extended list. -/
theorem v10_at (n : Fin 1000000) : val_main_v10 (F := Ideal) ei (ix1 n) = degT ei n := by
  unfold val_main_v10
  rw [show scatter_S1000000_S17000000x1_S17000000_n_0_0_1 =
    Cert.Val.rowDims1 1000000 17000000 Facts₀.scatter_S1000000_S17000000x1_S17000000_n_0_0_1_wf from rfl,
    Cert.Val.scatterAdd_rows1_apply]
  have h8 : val_main_v8 (F := Ideal) (ix1 n) = zeroF := by rw [val_main_v8_apply, val_main_cst_0_apply]; rfl
  rw [h8]
  unfold degT
  refine congrArg (fun s => zeroF + s) (Finset.sum_congr rfl fun e _ => ?_)
  have h7 : val_main_v7 (F := Ideal) (ix1 e) = oneF := by rw [val_main_v7_apply, val_main_cst_apply]; rfl
  rw [v9_at, h7]

/-- The inverse square roots of the degrees. -/
theorem v14_at (n : Fin 1000000) : val_main_v14 (F := Ideal) ei (ix1 n) = dinvT ei n := by
  rw [val_main_v14_apply, val_main_v12_apply, val_main_v13_apply, v10_at]
  rfl

/-! ## Index words as they are read: negative ones shifted -/

theorem v19_at (e : Fin 17000000) : val_main_v19 (F := Ideal) ei (ix1 e) = wrap (srcT ei e) := by
  rw [val_main_v19_apply, val_main_v16_apply, val_main_v18_apply, v3_at]
  rfl

theorem v20_at (e : Fin 17000000) : val_main_v20 (F := Ideal) ei (ix2 e (0 : Fin 1)) = wrap (srcT ei e) := by
  rw [val_main_v20_apply, ← v19_at]
  congr 1
  funext a
  match a with
  | ⟨0, _⟩ => rfl

theorem v26_at (e : Fin 17000000) : val_main_v26 (F := Ideal) ei (ix1 e) = wrap (dstT ei e) := by
  rw [val_main_v26_apply, val_main_v23_apply, val_main_v25_apply, v6_at]
  rfl

theorem v27_at (e : Fin 17000000) : val_main_v27 (F := Ideal) ei (ix2 e (0 : Fin 1)) = wrap (dstT ei e) := by
  rw [val_main_v27_apply, ← v26_at]
  congr 1
  funext a
  match a with
  | ⟨0, _⟩ => rfl

theorem v35_at (e : Fin 17000000) : val_main_v35 (F := Ideal) ei (ix1 e) = wrap (srcT ei e) := by
  rw [val_main_v35_apply, val_main_v32_apply, val_main_v34_apply, v3_at]
  rfl

theorem v36_at (e : Fin 17000000) : val_main_v36 (F := Ideal) ei (ix2 e (0 : Fin 1)) = wrap (srcT ei e) := by
  rw [val_main_v36_apply, ← v35_at]
  congr 1
  funext a
  match a with
  | ⟨0, _⟩ => rfl

theorem v53_at (e : Fin 17000000) : val_main_v53 (F := Ideal) ei (ix1 e) = wrap (srcT ei e) := by
  rw [val_main_v53_apply, val_main_v50_apply, val_main_v52_apply, v3_at]
  rfl

theorem v54_at (e : Fin 17000000) : val_main_v54 (F := Ideal) ei (ix2 e (0 : Fin 1)) = wrap (srcT ei e) := by
  rw [val_main_v54_apply, ← v53_at]
  congr 1
  funext a
  match a with
  | ⟨0, _⟩ => rfl

/-- The row an index column selects, when its entry at e is the shifted word of w: the row the word w reads. -/
theorem row_eq (idx : IVec ⟨2, ![17000000, 1]⟩ 32) (e : Fin 17000000) (w : BitVec 32)
    (h : idx (ix2 e (0 : Fin 1)) = wrap w) :
    (⟨Cert.LibGatherRows.rowOf 1000000 idx e, Cert.LibGatherRows.rowOf_lt (by decide) idx e⟩ : Fin 1000000) = rowOf w := by
  refine Fin.ext ?_
  show min (idx (ix2 e (0 : Fin 1))).toInt.toNat (1000000 - 1) = min (wrap w).toInt.toNat (1000000 - 1)
  rw [h]

/-! ## The edge weights -/

theorem v21_at (e : Fin 17000000) : val_main_v21 (F := Ideal) ei (ix1 e) = dinvT ei (rowOf (srcT ei e)) := by
  unfold val_main_v21
  rw [show gather_S1000000_S17000000x1_S17000000_n_0_n_n_0_1_1 =
    Cert.LibGatherVec.vecDims 1000000 17000000 Facts₀.gather_S1000000_S17000000x1_S17000000_n_0_n_n_0_1_1_wf from rfl,
    Cert.LibGatherVec.gather_vec_apply (by decide), row_eq _ e _ (v20_at ei e), v14_at]

theorem v28_at (e : Fin 17000000) : val_main_v28 (F := Ideal) ei (ix1 e) = dinvT ei (rowOf (dstT ei e)) := by
  unfold val_main_v28
  rw [show gather_S1000000_S17000000x1_S17000000_n_0_n_n_0_1_1 =
    Cert.LibGatherVec.vecDims 1000000 17000000 Facts₀.gather_S1000000_S17000000x1_S17000000_n_0_n_n_0_1_1_wf from rfl,
    Cert.LibGatherVec.gather_vec_apply (by decide), row_eq _ e _ (v27_at ei e), v14_at]

theorem v29_at (e : Fin 17000000) : val_main_v29 (F := Ideal) ei (ix1 e) = nuT ei e := by
  rw [val_main_v29_apply, v21_at, v28_at]
  rfl

end Cert.Gcn.Ref

end
-- ==== Proof.RefValue.lean ====
import proofs.«166989_j84722524881383_2_alg».proof.Proof.RefRead
import proofs.«166989_j84722524881383_2_alg».proof.Proof.Spec
import proofs.«166989_j84722524881383_2_alg».proof.Proof.LibScatterRows
import proofs.«166989_j84722524881383_2_alg».proof.Proof.LibGatherRows
import proofs.«166989_j84722524881383_2_alg».proof.Proof.LibGatherVec
import proofs.«166989_j84722524881383_2_alg».proof.Proof.LibConcatTwo
import proofs.«166989_j84722524881383_2_alg».proof.Proof.RefWords

noncomputable section
open scoped BigOperators

namespace Cert.Gcn.Ref

open Idealize.ShloMosaic Idealize.ShloMosaic.ValueIdx Cert.ReferenceIdeal Cert.ReferenceIdeal.ReadP

variable (x : (⟨S1000000x2, .f32⟩ : BufTy).Contents (Elt Ideal)) (ei : (⟨S2x16000000, .i32⟩ : BufTy).Contents (Elt Ideal))
  (W1 : (⟨S2x4, .f32⟩ : BufTy).Contents (Elt Ideal)) (b1 : (⟨S4, .f32⟩ : BufTy).Contents (Elt Ideal))
  (W2 : (⟨S4x2, .f32⟩ : BufTy).Contents (Elt Ideal)) (b2 : (⟨S2, .f32⟩ : BufTy).Contents (Elt Ideal))

/-! ## Layer 1 -/

/-- The dense layer on the raw features. -/
theorem v30_at (n : Fin 1000000) (j : Fin 4) : val_main_v30 (F := Ideal) x W1 (ix2 n j) = xw x W1 n j := by
  rw [val_main_v30_apply]
  unfold xw
  refine Finset.sum_congr rfl fun k _ => ?_
  have hl : lidx_main_v30 (ix2 n j) k = ix2 n k := by
    funext a
    match a with
    | ⟨0, _⟩ => rfl
    | ⟨1, _⟩ => rfl
  have hr : ridx_main_v30 (ix2 n j) k = ix2 k j := by
    funext a
    match a with
    | ⟨0, _⟩ => rfl
    | ⟨1, _⟩ => rfl
  rw [hl, hr]

/-- Its rows taken at the sources. -/
theorem v37_at (e : Fin 17000000) (j : Fin 4) :
    val_main_v37 (F := Ideal) x ei W1 (ix2 e j) = xw x W1 (rowOf (srcT ei e)) j := by
  unfold val_main_v37
  rw [show gather_S1000000x4_S17000000x1_S17000000x4_1_0_n_n_0_1_14 =
    Cert.LibGatherRows.rowDims 1000000 17000000 4 Facts₀.gather_S1000000x4_S17000000x1_S17000000x4_1_0_n_n_0_1_14_wf from rfl,
    Cert.LibGatherRows.gather_rows_apply (by decide), row_eq _ e _ (v36_at ei e), v30_at]

/-- The edge weight spread along the four columns. -/
theorem v39_at (e : Fin 17000000) (j : Fin 4) : val_main_v39 (F := Ideal) ei (ix2 e j) = nuT ei e := by
  rw [val_main_v39_apply, val_main_v38_apply, ← v29_at]
  congr 1
  funext a
  match a with
  | ⟨0, _⟩ => rfl

theorem v40_at (e : Fin 17000000) (j : Fin 4) :
    val_main_v40 (F := Ideal) x ei W1 (ix2 e j) = xw x W1 (rowOf (srcT ei e)) j * nuT ei e := by
  rw [val_main_v40_apply, v37_at, v39_at]
  rfl

theorem v42_at (e : Fin 17000000) : val_main_v42 (F := Ideal) ei (ix2 e (0 : Fin 1)) = dstT ei e := by
  rw [val_main_v42_apply, ← v6_at]
  congr 1
  funext a
  match a with
  | ⟨0, _⟩ => rfl

/-- The weighted rows summed into their targets. -/
theorem v43_at (n : Fin 1000000) (j : Fin 4) :
    val_main_v43 (F := Ideal) x ei W1 (ix2 n j) =
      zeroF + ∑ e : Fin 17000000, if (dstT ei e).toInt = (n.val : Int) then xw x W1 (rowOf (srcT ei e)) j * nuT ei e else 0 := by
  unfold val_main_v43
  rw [show scatter_S1000000x4_S17000000x1_S17000000x4_1_0_0_1 =
    Cert.Val.rowDims 1000000 4 17000000 Facts₀.scatter_S1000000x4_S17000000x1_S17000000x4_1_0_0_1_wf from rfl,
    Cert.Val.scatterAdd_rows_apply]
  have h41 : val_main_v41 (F := Ideal) (ix2 n j) = zeroF := by rw [val_main_v41_apply, val_main_cst_8_apply]; rfl
  rw [h41]
  refine congrArg (fun s => zeroF + s) (Finset.sum_congr rfl fun e _ => ?_)
  rw [v42_at, v40_at]

theorem v45_at (n : Fin 1000000) (j : Fin 4) : val_main_v45 (F := Ideal) b1 (ix2 n j) = b1 (ix1 j) := by
  rw [val_main_v45_apply, val_main_v44_apply]
  congr 1
  funext a
  match a with
  | ⟨0, _⟩ => rfl

/-- Layer 1: the bias and the rectifier. -/
theorem v47_at (n : Fin 1000000) (j : Fin 4) :
    val_main_v47 (F := Ideal) x ei W1 b1 (ix2 n j) = h1T x ei W1 b1 n j := by
  have h0 : val_main_call1_v0 (F := Ideal) (ix2 n j) = zeroF := by
    rw [val_main_call1_v0_apply, val_main_call1_cst_apply]; rfl
  rw [val_main_v47_apply, val_main_v46_apply, v43_at, v45_at, h0]
  rfl

/-! ## Layer 2 -/

/-- The dense layer on layer 1's result. -/
theorem v48_at (n : Fin 1000000) (j : Fin 2) :
    val_main_v48 (F := Ideal) x ei W1 b1 W2 (ix2 n j) = h2T x ei W1 b1 W2 n j := by
  rw [val_main_v48_apply]
  unfold h2T
  refine Finset.sum_congr rfl fun k _ => ?_
  have hl : lidx_main_v48 (ix2 n j) k = ix2 n k := by
    funext a
    match a with
    | ⟨0, _⟩ => rfl
    | ⟨1, _⟩ => rfl
  have hr : ridx_main_v48 (ix2 n j) k = ix2 k j := by
    funext a
    match a with
    | ⟨0, _⟩ => rfl
    | ⟨1, _⟩ => rfl
  rw [hl, hr, v47_at]

/-- Its rows taken at the sources. -/
theorem v55_at (e : Fin 17000000) (j : Fin 2) :
    val_main_v55 (F := Ideal) x ei W1 b1 W2 (ix2 e j) = h2T x ei W1 b1 W2 (rowOf (srcT ei e)) j := by
  unfold val_main_v55
  rw [show gather_S1000000x2_S17000000x1_S17000000x2_1_0_n_n_0_1_12 =
    Cert.LibGatherRows.rowDims 1000000 17000000 2 Facts₀.gather_S1000000x2_S17000000x1_S17000000x2_1_0_n_n_0_1_12_wf from rfl,
    Cert.LibGatherRows.gather_rows_apply (by decide), row_eq _ e _ (v54_at ei e), v48_at]

/-- The edge weight spread along the two columns. -/
theorem v57_at (e : Fin 17000000) (j : Fin 2) : val_main_v57 (F := Ideal) ei (ix2 e j) = nuT ei e := by
  rw [val_main_v57_apply, val_main_v56_apply, ← v29_at]
  congr 1
  funext a
  match a with
  | ⟨0, _⟩ => rfl

theorem v58_at (e : Fin 17000000) (j : Fin 2) :
    val_main_v58 (F := Ideal) x ei W1 b1 W2 (ix2 e j) = h2T x ei W1 b1 W2 (rowOf (srcT ei e)) j * nuT ei e := by
  rw [val_main_v58_apply, v55_at, v57_at]
  rfl

theorem v60_at (e : Fin 17000000) : val_main_v60 (F := Ideal) ei (ix2 e (0 : Fin 1)) = dstT ei e := by
  rw [val_main_v60_apply, ← v6_at]
  congr 1
  funext a
  match a with
  | ⟨0, _⟩ => rfl

/-- The weighted rows summed into their targets. -/
theorem v61_at (n : Fin 1000000) (j : Fin 2) :
    val_main_v61 (F := Ideal) x ei W1 b1 W2 (ix2 n j) =
      zeroF + ∑ e : Fin 17000000, if (dstT ei e).toInt = (n.val : Int) then h2T x ei W1 b1 W2 (rowOf (srcT ei e)) j * nuT ei e else 0 := by
  unfold val_main_v61
  rw [show scatter_S1000000x2_S17000000x1_S17000000x2_1_0_0_1 =
    Cert.Val.rowDims 1000000 2 17000000 Facts₀.scatter_S1000000x2_S17000000x1_S17000000x2_1_0_0_1_wf from rfl,
    Cert.Val.scatterAdd_rows_apply]
  have h59 : val_main_v59 (F := Ideal) (ix2 n j) = zeroF := by rw [val_main_v59_apply, val_main_cst_11_apply]; rfl
  rw [h59]
  refine congrArg (fun s => zeroF + s) (Finset.sum_congr rfl fun e _ => ?_)
  rw [v60_at, v58_at]

theorem v63_at (n : Fin 1000000) (j : Fin 2) : val_main_v63 (F := Ideal) b2 (ix2 n j) = b2 (ix1 j) := by
  rw [val_main_v63_apply, val_main_v62_apply]
  congr 1
  funext a
  match a with
  | ⟨0, _⟩ => rfl

/-- THE REFERENCE PROGRAM'S RESULT at (n, j) is the closed form over the extended edge list. -/
theorem ref_at (x : (⟨S1000000x2, .f32⟩ : BufTy).Contents (Elt Ideal)) (ei : (⟨S2x16000000, .i32⟩ : BufTy).Contents (Elt Ideal))
    (W1 : (⟨S2x4, .f32⟩ : BufTy).Contents (Elt Ideal)) (b1 : (⟨S4, .f32⟩ : BufTy).Contents (Elt Ideal))
    (W2 : (⟨S4x2, .f32⟩ : BufTy).Contents (Elt Ideal)) (b2 : (⟨S2, .f32⟩ : BufTy).Contents (Elt Ideal))
    (n : Fin 1000000) (j : Fin 2) :
    Cert.ReferenceIdeal.ReadP.val_main_v64 (F := Ideal) x ei W1 b1 W2 b2 (ValueIdx.ix2 n j) = Cert.Gcn.outT x ei W1 b1 W2 b2 n j := by
  rw [val_main_v64_apply, v61_at, v63_at]
  rfl

end Cert.Gcn.Ref

end
-- ==== Proof.LibSumSplit.lean ====
/-
  Three general facts about finite sums.

  * A sum over the first c = a + b naturals splits as the sum over the first a plus the sum over the last b.
  * A finite sum of coerced reals is the coercion of the real sum (in the extended reals).
  * In the extended reals multiplication does not distribute over addition in general; it does on real numbers.
    `linear_agg`: for real-valued data, applying a linear map after a masked weighted aggregation plus a
    self term equals aggregating the mapped values and adding the mapped self term.
-/
import Mathlib.Data.EReal.Basic
import Mathlib.Data.EReal.Operations
import Mathlib.Algebra.BigOperators.Fin

open scoped BigOperators

namespace Cert.LibSumSplit

/-- A sum over `Fin c` with `a + b = c`: the first `a` indices, then the last `b`. -/
theorem sum_fin_split {M : Type} [AddCommMonoid M] {a b c : Nat} (h : a + b = c) (f : Fin c → M) :
    ∑ i, f i = ∑ i : Fin a, f ⟨i.val, by omega⟩ + ∑ l : Fin b, f ⟨a + l.val, by omega⟩ := by
  subst h
  rw [Fin.sum_univ_add]
  rfl

/-- The coercion of a finite real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional of coerced reals. -/
theorem coe_ite (p : Prop) [Decidable p] (a b : ℝ) : ((if p then a else b : ℝ) : EReal) = if p then (a : EReal) else (b : EReal) := by
  split <;> rfl

/-- The real identity behind `linear_agg`. -/
theorem linear_agg_real {E K : Type} [Fintype E] [Fintype K] (p : E → Prop) [DecidablePred p]
    (xs : E → K → ℝ) (xn w : K → ℝ) (ν : E → ℝ) (d : ℝ) :
    ∑ k, ((0 + ∑ e, if p e then xs e k * ν e else 0) + xn k * d) * w k
      = 0 + ((∑ e, if p e then (∑ k, xs e k * w k) * ν e else 0) + (∑ k, xn k * w k) * d) := by
  simp only [zero_add, add_mul, Finset.sum_add_distrib, Finset.sum_mul]
  congr 1
  · rw [Finset.sum_comm]
    refine Finset.sum_congr rfl fun e _ => ?_
    split
    · refine Finset.sum_congr rfl fun k _ => ?_
      ring
    · simp
  · refine Finset.sum_congr rfl fun k _ => ?_
    ring

/-- The same over the extended reals, for data that are real numbers. -/
theorem linear_agg {E K : Type} [Fintype E] [Fintype K] (p : E → Prop) [DecidablePred p]
    (xs : E → K → EReal) (xn w : K → EReal) (ν : E → EReal) (d : EReal)
    (hxs : ∀ e k, ∃ r : ℝ, xs e k = (r : EReal)) (hxn : ∀ k, ∃ r : ℝ, xn k = (r : EReal))
    (hw : ∀ k, ∃ r : ℝ, w k = (r : EReal)) (hν : ∀ e, ∃ r : ℝ, ν e = (r : EReal)) (hd : ∃ r : ℝ, d = (r : EReal)) :
    ∑ k, ((0 + ∑ e, if p e then xs e k * ν e else 0) + xn k * d) * w k
      = 0 + ((∑ e, if p e then (∑ k, xs e k * w k) * ν e else 0) + (∑ k, xn k * w k) * d) := by
  choose xs' hxs' using hxs
  choose xn' hxn' using hxn
  choose w' hw' using hw
  choose ν' hν' using hν
  obtain ⟨d', rfl⟩ := hd
  have h := congrArg (fun r : ℝ => (r : EReal)) (linear_agg_real p xs' xn' w' ν' d')
  simp only [EReal.coe_add, EReal.coe_mul, coe_sum, coe_ite, EReal.coe_zero] at h
  simp only [hxs', hxn', hw', hν']
  exact h

end Cert.LibSumSplit
-- ==== Proof.Algebra.lean ====
/-
  The two arrangements of the graph convolution agree when the node features and the first dense layer hold
  real numbers: in the extended edge list the loop l → n contributes exactly when l = n, which is the explicit
  self term; the degrees, inverse square roots and edge weights therefore agree; layer 1 is linear in the
  features, so the dense layer may be applied before or after the aggregation; layer 2 is the same sum regrouped.
-/
import proofs.«166989_j84722524881383_2_alg».proof.Proof.Spec
import proofs.«166989_j84722524881383_2_alg».proof.Proof.LibSumSplit

noncomputable section
open scoped BigOperators

namespace Cert.Gcn

open Idealize.ShloMosaic Idealize.ShloMosaic.ValueIdx Cert.LibSumSplit

/-! ## The two float constants -/

theorem zeroF_eq : zeroF = 0 := Ideal.ofBits_zero_f32

theorem oneF_eq : oneF = 1 := by
  show Ideal.ofBits .f32 0x3F800000#32 = 1
  simp [Ideal.ofBits, Ideal.ieee]
  rw [← EReal.coe_one]
  norm_cast
  norm_num

/-! ## Index words of the appended loops -/

theorem lt_nN (l : Fin nN) : l.val < 1000000 := l.isLt
theorem lt_nE (e : Fin nE) : e.val < 16000000 := e.isLt

/-- The word of a node number is that number, signed. -/
theorem toInt_ofNat_node (l : Nat) (hl : l < 1000000) : (BitVec.ofNat 32 l).toInt = (l : Int) := by
  rw [BitVec.toInt_eq_toNat_cond]
  simp only [BitVec.toNat_ofNat]
  have : l % 2 ^ 32 = l := Nat.mod_eq_of_lt (by omega)
  rw [this]
  split <;> omega

/-- A node number's word is not negative, so it is read unshifted. -/
theorem wrap_ofNat_node (l : Nat) (hl : l < 1000000) : wrap (BitVec.ofNat 32 l) = BitVec.ofNat 32 l := by
  have h : (BitVec.ofNat 32 l).slt 0#32 = false := by
    rw [BitVec.slt_eq_decide, toInt_ofNat_node l hl]
    simp
  unfold wrap Scalar.select IntOp.cmpi
  simp only [h]
  rfl

/-- The row a node number's word reads is that node. -/
theorem rowOf_ofNat_node (l : Fin nN) : rowOf (BitVec.ofNat 32 l.val) = l := by
  apply Fin.ext
  show min (wrap (BitVec.ofNat 32 l.val)).toInt.toNat (nN - 1) = l.val
  rw [wrap_ofNat_node l.val (lt_nN l), toInt_ofNat_node l.val (lt_nN l)]
  have := lt_nN l
  simp only [nN]
  omega

/-- The place of edge e, and of the loop at node l, in the extended list. -/
def edgeT (e : Fin nE) : Fin nT := ⟨e.val, by have := lt_nE e; show e.val < 17000000; omega⟩
def loopT (l : Fin nN) : Fin nT := ⟨nE + l.val, by have := lt_nN l; show 16000000 + l.val < 17000000; omega⟩

section
variable (x : (⟨2, ![1000000, 2]⟩ : Shape).Idx → EReal) (ei : (⟨2, ![2, 16000000]⟩ : Shape).Idx → BitVec 32)
  (W1 : (⟨2, ![2, 4]⟩ : Shape).Idx → EReal) (b1 : (⟨1, ![4]⟩ : Shape).Idx → EReal)
  (W2 : (⟨2, ![4, 2]⟩ : Shape).Idx → EReal) (b2 : (⟨1, ![2]⟩ : Shape).Idx → EReal)

/-! ## The extended list: its edge part and its loop part -/

theorem srcT_edge (e : Fin nE) : srcT ei (edgeT e) = src ei e := dif_pos (lt_nE e)
theorem dstT_edge (e : Fin nE) : dstT ei (edgeT e) = dst ei e := dif_pos (lt_nE e)

theorem srcT_loop (l : Fin nN) : srcT ei (loopT l) = BitVec.ofNat 32 l.val := by
  unfold srcT
  rw [dif_neg (by show ¬ (nE + l.val < nE); omega)]
  show BitVec.ofNat 32 (nE + l.val - nE) = _
  rw [Nat.add_sub_cancel_left]

theorem dstT_loop (l : Fin nN) : dstT ei (loopT l) = BitVec.ofNat 32 l.val := by
  unfold dstT
  rw [dif_neg (by show ¬ (nE + l.val < nE); omega)]
  show BitVec.ofNat 32 (nE + l.val - nE) = _
  rw [Nat.add_sub_cancel_left]

/-- A sum over the extended list of terms kept where the target word names node n: the same sum over the edges,
    plus the term of the loop at n (the loop at l names n exactly when l = n). -/
theorem sum_T (n : Fin nN) (G : Fin nT → EReal) :
    ∑ e : Fin nT, (if (dstT ei e).toInt = (n.val : Int) then G e else 0)
      = ∑ e : Fin nE, (if (dst ei e).toInt = (n.val : Int) then G (edgeT e) else 0) + G (loopT n) := by
  have hsplit := sum_fin_split (a := 16000000) (b := 1000000) (c := 17000000) (by norm_num) (fun e : Fin nT => if (dstT ei e).toInt = (n.val : Int) then G e else 0)
  refine hsplit.trans (congrArg₂ (· + ·) ?_ ?_)
  · refine Finset.sum_congr rfl fun e _ => ?_
    show (if (dstT ei (edgeT e)).toInt = _ then G (edgeT e) else 0) = _
    rw [dstT_edge]
  · have h : ∀ l : Fin nN, (if (dstT ei (loopT l)).toInt = (n.val : Int) then G (loopT l) else 0)
        = if l = n then G (loopT l) else 0 := by
      intro l
      rw [dstT_loop, toInt_ofNat_node l.val (lt_nN l)]
      have : ((l.val : Int) = (n.val : Int)) ↔ l = n := by rw [Int.natCast_inj, Fin.val_inj]
      simp only [this]
    show ∑ l : Fin nN, (if (dstT ei (loopT l)).toInt = (n.val : Int) then G (loopT l) else 0) = _
    simp only [h]
    rw [Finset.sum_ite_eq' Finset.univ n]
    simp

/-! ## Degrees, inverse square roots and weights agree -/

theorem degT_eq (n : Fin nN) : degT ei n = deg ei n := by
  unfold degT deg
  rw [sum_T ei n (fun _ => oneF)]
  exact (add_assoc _ _ _).symm

theorem dinvT_eq : dinvT ei = dinv ei := by
  funext n
  unfold dinvT dinv
  rw [degT_eq]

theorem nuT_edge (e : Fin nE) : nuT ei (edgeT e) = nu ei e := by
  unfold nuT nu
  rw [srcT_edge, dstT_edge, dinvT_eq]

theorem nuT_loop (l : Fin nN) : nuT ei (loopT l) = dinv ei l * dinv ei l := by
  unfold nuT
  rw [srcT_loop, dstT_loop, rowOf_ofNat_node, dinvT_eq]

/-- Aggregating node values g over the extended list: the aggregation over the edges plus the self term. -/
theorem agg_T (n : Fin nN) (g : Fin nN → EReal) :
    ∑ e : Fin nT, (if (dstT ei e).toInt = (n.val : Int) then g (rowOf (srcT ei e)) * nuT ei e else 0)
      = ∑ e : Fin nE, (if (dst ei e).toInt = (n.val : Int) then g (rowOf (src ei e)) * nu ei e else 0)
        + g n * (dinv ei n * dinv ei n) := by
  rw [sum_T ei n (fun e => g (rowOf (srcT ei e)) * nuT ei e)]
  simp only [srcT_edge, nuT_edge, srcT_loop, nuT_loop, rowOf_ofNat_node]

/-! ## The inverse square root of a degree is a real number -/

theorem deg_real (n : Fin nN) : ∃ r : ℝ, 0 < r ∧ deg ei n = (r : EReal) := by
  refine ⟨(∑ e : Fin nE, if (dst ei e).toInt = (n.val : Int) then (1 : ℝ) else 0) + 1, ?_, ?_⟩
  · have : 0 ≤ ∑ e : Fin nE, if (dst ei e).toInt = (n.val : Int) then (1 : ℝ) else 0 :=
      Finset.sum_nonneg fun e _ => by split <;> norm_num
    linarith
  · unfold deg
    rw [zeroF_eq, oneF_eq, zero_add, EReal.coe_add, coe_sum]
    simp only [coe_ite, EReal.coe_one, EReal.coe_zero]

theorem invSqrt_real (r : ℝ) (hr : 0 < r) : ∃ s : ℝ, invSqrt (r : EReal) = (s : EReal) := by
  refine ⟨(Real.sqrt r)⁻¹, ?_⟩
  unfold invSqrt
  rw [zeroF_eq]
  show Scalar.select (Ideal.cmp .ogt (r : EReal) 0) (Ideal.rsqrt (r : EReal)) 0 = _
  have h1 : Ideal.cmp .ogt (r : EReal) 0 = 1#1 := by simp [Ideal.cmp, hr]
  rw [h1]
  unfold Scalar.select
  have h11 : ((1#1 : BitVec 1) = 1) := rfl
  rw [if_pos h11, Ideal.rsqrt_coe, if_neg (not_lt.2 hr.le), if_neg hr.ne']

theorem dinv_real (n : Fin nN) : ∃ s : ℝ, dinv ei n = (s : EReal) := by
  obtain ⟨r, hr, e⟩ := deg_real ei n
  unfold dinv
  rw [e]
  exact invSqrt_real r hr

theorem nu_real (e : Fin nE) : ∃ s : ℝ, nu ei e = (s : EReal) := by
  obtain ⟨a, ha⟩ := dinv_real ei (rowOf (src ei e))
  obtain ⟨b, hb⟩ := dinv_real ei (rowOf (dst ei e))
  exact ⟨a * b, by unfold nu; rw [ha, hb, EReal.coe_mul]⟩

theorem dinv_sq_real (n : Fin nN) : ∃ s : ℝ, dinv ei n * dinv ei n = (s : EReal) := by
  obtain ⟨a, ha⟩ := dinv_real ei n
  exact ⟨a * a, by rw [ha, EReal.coe_mul]⟩

/-! ## Layer 1, layer 2, the result -/

theorem h1T_eq (hx : ∀ i, ∃ r : ℝ, x i = (r : EReal)) (hW1 : ∀ i, ∃ r : ℝ, W1 i = (r : EReal)) (n : Fin nN) (j : Fin 4) :
    h1T x ei W1 b1 n j = h1 x ei W1 b1 n j := by
  unfold h1T h1
  have hagg := agg_T ei n (fun m => xw x W1 m j)
  rw [hagg]
  refine congrArg (fun t => max (t + b1 (ix1 j)) zeroF) ?_
  unfold xw agg1
  rw [zeroF_eq]
  exact (linear_agg (fun e : Fin nE => (dst ei e).toInt = (n.val : Int))
    (fun e k => x (ix2 (rowOf (src ei e)) k)) (fun k => x (ix2 n k)) (fun k => W1 (ix2 k j)) (nu ei)
    (dinv ei n * dinv ei n) (fun e k => hx _) (fun k => hx _) (fun k => hW1 _) (nu_real ei) (dinv_sq_real ei n)).symm

theorem h2T_eq (hx : ∀ i, ∃ r : ℝ, x i = (r : EReal)) (hW1 : ∀ i, ∃ r : ℝ, W1 i = (r : EReal)) (n : Fin nN) (j : Fin 2) :
    h2T x ei W1 b1 W2 n j = h2 x ei W1 b1 W2 n j := by
  unfold h2T h2
  refine Finset.sum_congr rfl fun k _ => ?_
  rw [h1T_eq x ei W1 b1 hx hW1]

end

/-- THE TWO ARRANGEMENTS AGREE on real node features and a real first dense layer. -/
theorem outT_eq_out (x : (⟨2, ![1000000, 2]⟩ : Shape).Idx → EReal) (ei : (⟨2, ![2, 16000000]⟩ : Shape).Idx → BitVec 32)
    (W1 : (⟨2, ![2, 4]⟩ : Shape).Idx → EReal) (b1 : (⟨1, ![4]⟩ : Shape).Idx → EReal)
    (W2 : (⟨2, ![4, 2]⟩ : Shape).Idx → EReal) (b2 : (⟨1, ![2]⟩ : Shape).Idx → EReal)
    (hx : ∀ i, ∃ r : ℝ, x i = (r : EReal)) (hW1 : ∀ i, ∃ r : ℝ, W1 i = (r : EReal)) (n : Fin 1000000) (j : Fin 2) :
    outT x ei W1 b1 W2 b2 n j = out x ei W1 b1 W2 b2 n j := by
  unfold outT out
  have hh : h2T x ei W1 b1 W2 = h2 x ei W1 b1 W2 := by
    funext m i
    exact h2T_eq x ei W1 b1 W2 hx hW1 m i
  rw [hh, agg_T ei n (fun m => h2 x ei W1 b1 W2 m j)]
  simp only [add_assoc]

end Cert.Gcn

end
-- ==== Proof.Finite.lean ====
/-
  The printed precondition says of each float argument array that every entry's absolute value is below +∞, and
  that all these comparisons hold at once. Read back at the ideal values (extended reals): every entry of the node
  features and of the first dense layer is a real number — neither an infinity nor the junk value.
-/
import proofs.«166989_j84722524881383_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Gcn

open Idealize.ShloMosaic

/-- The rank-0 index set has one element. -/
instance subsingleton_S_ : Subsingleton Cert.Pre_finite_inputs.S_.Idx := ⟨fun a b => funext fun d => d.elim0⟩

/-- The pattern 0x7F800000 denotes +∞. -/
theorem ofBits_inf_f32 : Ideal.ofBits .f32 0x7F800000#32 = ⊤ := by simp [Ideal.ofBits, Ideal.ieee]

/-- An extended real whose absolute value compares below +∞ is a real number. -/
theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  have h' : Ideal.cmp .olt (max v (-v)) (Ideal.ofBits .f32 0x7F800000#32) = 1#1 := h
  rw [ofBits_inf_f32] at h'
  induction v using EReal.rec with
  | bot => simp [Ideal.cmp] at h'
  | coe r => exact ⟨r, rfl⟩
  | top => simp [Ideal.cmp] at h'

/-- THE PRECONDITION DECODED: the node features and the first dense layer hold real numbers. -/
theorem real_of_pre [Cert.Pre_finite_inputs.Facts]
    (x : (⟨2, ![1000000, 2]⟩ : Shape).Idx → EReal) (ei : (⟨2, ![2, 16000000]⟩ : Shape).Idx → BitVec 32)
    (W1 : (⟨2, ![2, 4]⟩ : Shape).Idx → EReal) (b1 : (⟨1, ![4]⟩ : Shape).Idx → EReal)
    (W2 : (⟨2, ![4, 2]⟩ : Shape).Idx → EReal) (b2 : (⟨1, ![2]⟩ : Shape).Idx → EReal)
    (h : Cert.Pre_finite_inputs.fn (F := Ideal) x ei W1 b1 W2 b2 = (fun _ => 1#1)) :
    (∀ i, ∃ r : ℝ, x i = (r : EReal)) ∧ (∀ i, ∃ r : ℝ, W1 i = (r : EReal)) := by
  have e := congrFun h ValueIdx.ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨hx, hW1⟩, -⟩, -⟩, -⟩ := e
  refine ⟨fun i => ?_, fun i => ?_⟩
  · exact real_of_abs_lt_inf _ (Host.reduce_andi_all _ _ _ _ _ hx i)
  · exact real_of_abs_lt_inf _ (Host.reduce_andi_all _ _ _ _ _ hW1 i)

end Cert.Gcn

end
-- ==== Proof.lean ====
/-
  The kernel program and the reference program compute the same two-layer graph convolution with symmetric degree
  normalisation. At the ideal values the kernel's result is the closed form with an explicit self term, the
  reference's is the closed form over the edge list extended by one loop per node, and the two closed forms are
  equal because the precondition makes the node features and the first dense layer real numbers: a loop
  contributes exactly its own node's self term, and the first layer is linear in the features. The three frame
  claims are the programs' runs with the result dropped.
-/
import proofs.«166989_j84722524881383_2_alg».proof.Defs
import proofs.«166989_j84722524881383_2_alg».proof.Proof.Gen.Kernel
import proofs.«166989_j84722524881383_2_alg».proof.Proof.Gen.Kernel.Skeleton
import proofs.«166989_j84722524881383_2_alg».proof.Proof.Gen.Kernel.Launch
import proofs.«166989_j84722524881383_2_alg».proof.Proof.Gen.Kernel.Points
import proofs.«166989_j84722524881383_2_alg».proof.Proof.Gen.Kernel.Frame
import proofs.«166989_j84722524881383_2_alg».proof.Proof.Gen.KernelIdeal
import proofs.«166989_j84722524881383_2_alg».proof.Proof.Gen.KernelIdeal.Skeleton
import proofs.«166989_j84722524881383_2_alg».proof.Proof.Gen.KernelIdeal.Launch
import proofs.«166989_j84722524881383_2_alg».proof.Proof.Gen.KernelIdeal.Points
import proofs.«166989_j84722524881383_2_alg».proof.Proof.Gen.KernelIdeal.Frame
import proofs.«166989_j84722524881383_2_alg».proof.Proof.Gen.ReferenceIdeal
import proofs.«166989_j84722524881383_2_alg».proof.Proof.Gen.Pre_finite_inputs
import proofs.«166989_j84722524881383_2_alg».proof.Proof.KerRun
import proofs.«166989_j84722524881383_2_alg».proof.Proof.KerOut
import proofs.«166989_j84722524881383_2_alg».proof.Proof.RefValue
import proofs.«166989_j84722524881383_2_alg».proof.Proof.Algebra
import proofs.«166989_j84722524881383_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.Kernel

/-! ## The frames -/

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-! ## The common value -/

/-- The result array both programs end with: the closed form with the explicit self term, entry by entry, of the
    six argument arrays. -/
def common (x : (⟨2, ![1000000, 2]⟩ : Shape).Idx → EReal) (ei : (⟨2, ![2, 16000000]⟩ : Shape).Idx → BitVec 32)
    (W1 : (⟨2, ![2, 4]⟩ : Shape).Idx → EReal) (b1 : (⟨1, ![4]⟩ : Shape).Idx → EReal)
    (W2 : (⟨2, ![4, 2]⟩ : Shape).Idx → EReal) (b2 : (⟨1, ![2]⟩ : Shape).Idx → EReal) :
    (⟨2, ![1000000, 2]⟩ : Shape).Idx → EReal :=
  fun i => Cert.Gcn.out x ei W1 b1 W2 b2 (i 0) (i 1)

theorem common_ix2 (x : (⟨2, ![1000000, 2]⟩ : Shape).Idx → EReal) (ei : (⟨2, ![2, 16000000]⟩ : Shape).Idx → BitVec 32)
    (W1 : (⟨2, ![2, 4]⟩ : Shape).Idx → EReal) (b1 : (⟨1, ![4]⟩ : Shape).Idx → EReal)
    (W2 : (⟨2, ![4, 2]⟩ : Shape).Idx → EReal) (b2 : (⟨1, ![2]⟩ : Shape).Idx → EReal) (n : Fin 1000000) (j : Fin 2) :
    common x ei W1 b1 W2 b2 (ix2 n j) = Cert.Gcn.out x ei W1 b1 W2 b2 n j := rfl

/-- The kernel's result buffer at the last boundary is the common value of the launch contents. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 m ρ c (Proc.devRef .tc Cert.KernelIdeal.main_v73)
      = common (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  obtain ⟨n, j, rfl⟩ : ∃ n j, i = ix2 n j := ⟨_, _, eq_ix2 i⟩
  exact (Cert.Gcn.Ker.kernel_at m ρ c n j).trans (common_ix2 _ _ _ _ _ _ n j).symm

/-- The reference's result stage is the common value of its arguments when the node features and the first dense
    layer are real numbers. -/
theorem ref_value (x : (⟨2, ![1000000, 2]⟩ : Shape).Idx → EReal) (ei : (⟨2, ![2, 16000000]⟩ : Shape).Idx → BitVec 32)
    (W1 : (⟨2, ![2, 4]⟩ : Shape).Idx → EReal) (b1 : (⟨1, ![4]⟩ : Shape).Idx → EReal)
    (W2 : (⟨2, ![4, 2]⟩ : Shape).Idx → EReal) (b2 : (⟨1, ![2]⟩ : Shape).Idx → EReal)
    (hx : ∀ i, ∃ r : ℝ, x i = (r : EReal)) (hW1 : ∀ i, ∃ r : ℝ, W1 i = (r : EReal)) :
    Cert.ReferenceIdeal.ReadP.val_main_v64 (F := Ideal) x ei W1 b1 W2 b2 = common x ei W1 b1 W2 b2 := by
  funext i
  obtain ⟨n, j, rfl⟩ : ∃ n j, i = ix2 n j := ⟨_, _, eq_ix2 i⟩
  exact (Cert.Gcn.Ref.ref_at x ei W1 b1 W2 b2 n j).trans
    ((Cert.Gcn.outT_eq_out x ei W1 b1 W2 b2 hx hW1 n j).trans (common_ix2 x ei W1 b1 W2 b2 n j).symm)

/-! ## The two programs agree -/

theorem algebraic : Cert.algebraic_KernelIdeal_ReferenceIdeal := by
  intro m ρ m' ρ' hpre hagree
  refine ⟨fun c => common (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_value m ρ c), (h c).2⟩)
      (Cert.Gcn.Ker.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hx, hW1⟩ := Cert.Gcn.real_of_pre _ _ _ _ _ _ (hpre c)
    rw [Cert.ReferenceIdeal.ReadP.val_main_v64_eq, (hagree c).1, (hagree c).2.1, (hagree c).2.2.1, (hagree c).2.2.2.1,
      (hagree c).2.2.2.2.1, (hagree c).2.2.2.2.2]
    exact ref_value _ _ _ _ _ _ hx hW1

/-! ## The claim -/

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
